-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x20000x128 : Shape := ⟨3, ![4, 20000, 128]⟩
abbrev S2x320000 : Shape := ⟨2, ![2, 320000]⟩
abbrev S128x128 : Shape := ⟨2, ![128, 128]⟩
abbrev S128 : Shape := ⟨1, ![128]⟩
abbrev S_ : Shape := ⟨0, ![]⟩

class Facts : Prop where
  bcast_S_S4x20000x128 : S_.BroadcastsInDim S4x20000x128 (![] : Fin 0 → Fin S4x20000x128.rank)
  reducesTo_S4x20000x128_S_d0_1_2 : S4x20000x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S4x20000x128 .f32) (main_arg1 : IVec S2x320000 32) (main_arg2 : FVec F S128x128 .f32) (main_arg3 : FVec F S128x128 .f32) (main_arg4 : FVec F S128x128 .f32) (main_arg5 : FVec F S128 .f32) (main_arg6 : FVec F S128 .f32) (main_arg7 : FVec F S128 .f32) : IVec S_ 1 :=
  let main_v0 : FVec F S4x20000x128 .f32 := Host.absf main_arg0
  let main_cst : FVec F S_ .f32 := constant S_ .f32 0x7F800000#32
  let main_v1 : FVec F S4x20000x128 .f32 := broadcastInDim S4x20000x128 ![] bcast_S_S4x20000x128 main_cst
  let main_v2 : IVec S4x20000x128 1 := cmpf .olt main_v0 main_v1
  let main_c : IVec S_ 1 := constantI S_ 1 1#1
  let main_v3 : IVec S_ 1 := (fun x v => Host.reduce IntOp.andi x v reducesTo_S4x20000x128_S_d0_1_2 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S4x20000x128 : Shape := ⟨3, ![4, 20000, 128]⟩
abbrev S2x320000 : Shape := ⟨2, ![2, 320000]⟩
abbrev S128x128 : Shape := ⟨2, ![128, 128]⟩
abbrev S128 : Shape := ⟨1, ![128]⟩
abbrev S20000 : Shape := ⟨1, ![20000]⟩
abbrev S1x320000 : Shape := ⟨2, ![1, 320000]⟩
abbrev S320000 : Shape := ⟨1, ![320000]⟩
abbrev S340000 : Shape := ⟨1, ![340000]⟩
abbrev S_ : Shape := ⟨0, ![]⟩
abbrev S340000x1 : Shape := ⟨2, ![340000, 1]⟩
abbrev S80000x128 : Shape := ⟨2, ![80000, 128]⟩
abbrev S8000x128 : Shape := ⟨2, ![8000, 128]⟩
abbrev S4x340000x128 : Shape := ⟨3, ![4, 340000, 128]⟩
abbrev S1x340000x1 : Shape := ⟨3, ![1, 340000, 1]⟩
abbrev S1x128 : Shape := ⟨2, ![1, 128]⟩

abbrev nBuf : Space → Nat
  | .hbm => 141
  | .vmem => 30
  | .smem => 0
  | _ => 0

abbrev hbmTy0_0 (i : Nat) : BufTy := match i % 128 with
  | 0 => ⟨S4x20000x128, .f32⟩
  | 1 => ⟨S2x320000, .i32⟩
  | 2 => ⟨S128x128, .f32⟩
  | 3 => ⟨S128x128, .f32⟩
  | 4 => ⟨S128x128, .f32⟩
  | 5 => ⟨S128, .f32⟩
  | 6 => ⟨S128, .f32⟩
  | 7 => ⟨S128, .f32⟩
  | 8 => ⟨S20000, .i32⟩
  | 9 => ⟨S1x320000, .i32⟩
  | 10 => ⟨S320000, .i32⟩
  | 11 => ⟨S340000, .i32⟩
  | 12 => ⟨S1x320000, .i32⟩
  | 13 => ⟨S320000, .i32⟩
  | 14 => ⟨S340000, .i32⟩
  | 15 => ⟨S_, .f32⟩
  | 16 => ⟨S340000, .f32⟩
  | 17 => ⟨S_, .f32⟩
  | 18 => ⟨S20000, .f32⟩
  | 19 => ⟨S340000x1, .i32⟩
  | 20 => ⟨S20000, .f32⟩
  | 21 => ⟨S_, .f32⟩
  | 22 => ⟨S20000, .f32⟩
  | 23 => ⟨S20000, .i1⟩
  | 24 => ⟨S_, .f32⟩
  | 25 => ⟨S20000, .f32⟩
  | 26 => ⟨S20000, .f32⟩
  | 27 => ⟨S20000, .f32⟩
  | 28 => ⟨S_, .f32⟩
  | 29 => ⟨S_, .f32⟩
  | 30 => ⟨S20000, .f32⟩
  | 31 => ⟨S20000, .f32⟩
  | 32 => ⟨S_, .i32⟩
  | 33 => ⟨S340000, .i32⟩
  | 34 => ⟨S340000, .i1⟩
  | 35 => ⟨S_, .i32⟩
  | 36 => ⟨S340000, .i32⟩
  | 37 => ⟨S340000, .i32⟩
  | 38 => ⟨S340000, .i32⟩
  | 39 => ⟨S340000x1, .i32⟩
  | 40 => ⟨S340000, .f32⟩
  | 41 => ⟨S_, .i32⟩
  | 42 => ⟨S340000, .i32⟩
  | 43 => ⟨S340000, .i1⟩
  | 44 => ⟨S_, .i32⟩
  | 45 => ⟨S340000, .i32⟩
  | 46 => ⟨S340000, .i32⟩
  | 47 => ⟨S340000, .i32⟩
  | 48 => ⟨S340000x1, .i32⟩
  | 49 => ⟨S340000, .f32⟩
  | 50 => ⟨S340000, .f32⟩
  | 51 => ⟨S80000x128, .f32⟩
  | 52 => ⟨S80000x128, .f32⟩
  | 53 => ⟨S4x20000x128, .f32⟩
  | 54 => ⟨S_, .i32⟩
  | 55 => ⟨S340000, .i32⟩
  | 56 => ⟨S340000, .i1⟩
  | 57 => ⟨S_, .i32⟩
  | 58 => ⟨S340000, .i32⟩
  | 59 => ⟨S340000, .i32⟩
  | 60 => ⟨S340000, .i32⟩
  | 61 => ⟨S340000x1, .i32⟩
  | 62 => ⟨S4x340000x128, .f32⟩
  | 63 => ⟨S1x340000x1, .f32⟩
  | 64 => ⟨S4x340000x128, .f32⟩
  | 65 => ⟨S4x340000x128, .f32⟩
  | 66 => ⟨S_, .f32⟩
  | 67 => ⟨S4x20000x128, .f32⟩
  | 68 => ⟨S_, .i32⟩
  | 69 => ⟨S340000, .i32⟩
  | 70 => ⟨S340000, .i1⟩
  | 71 => ⟨S_, .i32⟩
  | 72 => ⟨S340000, .i32⟩
  | 73 => ⟨S340000, .i32⟩
  | 74 => ⟨S340000, .i32⟩
  | 75 => ⟨S340000x1, .i32⟩
  | 76 => ⟨S4x20000x128, .f32⟩
  | 77 => ⟨S80000x128, .f32⟩
  | 78 => ⟨S1x128, .f32⟩
  | 79 => ⟨S80000x128, .f32⟩
  | 80 => ⟨S4x20000x128, .f32⟩
  | 81 => ⟨S80000x128, .f32⟩
  | 82 => ⟨S80000x128, .f32⟩
  | 83 => ⟨S4x20000x128, .f32⟩
  | 84 => ⟨S_, .i32⟩
  | 85 => ⟨S340000, .i32⟩
  | 86 => ⟨S340000, .i1⟩
  | 87 => ⟨S_, .i32⟩
  | 88 => ⟨S340000, .i32⟩
  | 89 => ⟨S340000, .i32⟩
  | 90 => ⟨S340000, .i32⟩
  | 91 => ⟨S340000x1, .i32⟩
  | 92 => ⟨S4x340000x128, .f32⟩
  | 93 => ⟨S1x340000x1, .f32⟩
  | 94 => ⟨S4x340000x128, .f32⟩
  | 95 => ⟨S4x340000x128, .f32⟩
  | 96 => ⟨S_, .f32⟩
  | 97 => ⟨S4x20000x128, .f32⟩
  | 98 => ⟨S_, .i32⟩
  | 99 => ⟨S340000, .i32⟩
  | 100 => ⟨S340000, .i1⟩
  | 101 => ⟨S_, .i32⟩
  | 102 => ⟨S340000, .i32⟩
  | 103 => ⟨S340000, .i32⟩
  | 104 => ⟨S340000, .i32⟩
  | 105 => ⟨S340000x1, .i32⟩
  | 106 => ⟨S4x20000x128, .f32⟩
  | 107 => ⟨S80000x128, .f32⟩
  | 108 => ⟨S1x128, .f32⟩
  | 109 => ⟨S80000x128, .f32⟩
  | 110 => ⟨S4x20000x128, .f32⟩
  | 111 => ⟨S80000x128, .f32⟩
  | 112 => ⟨S80000x128, .f32⟩
  | 113 => ⟨S4x20000x128, .f32⟩
  | 114 => ⟨S_, .i32⟩
  | 115 => ⟨S340000, .i32⟩
  | 116 => ⟨S340000, .i1⟩
  | 117 => ⟨S_, .i32⟩
  | 118 => ⟨S340000, .i32⟩
  | 119 => ⟨S340000, .i32⟩
  | 120 => ⟨S340000, .i32⟩
  | 121 => ⟨S340000x1, .i32⟩
  | 122 => ⟨S4x340000x128, .f32⟩
  | 123 => ⟨S1x340000x1, .f32⟩
  | 124 => ⟨S4x340000x128, .f32⟩
  | 125 => ⟨S4x340000x128, .f32⟩
  | 126 => ⟨S_, .f32⟩
  | 127 => ⟨S4x20000x128, .f32⟩
  | _ => ⟨S4x20000x128, .f32⟩

abbrev hbmTy0_1 (i : Nat) : BufTy := match i % 128 with
  | 0 => ⟨S_, .i32⟩
  | 1 => ⟨S340000, .i32⟩
  | 2 => ⟨S340000, .i1⟩
  | 3 => ⟨S_, .i32⟩
  | 4 => ⟨S340000, .i32⟩
  | 5 => ⟨S340000, .i32⟩
  | 6 => ⟨S340000, .i32⟩
  | 7 => ⟨S340000x1, .i32⟩
  | 8 => ⟨S4x20000x128, .f32⟩
  | 9 => ⟨S80000x128, .f32⟩
  | 10 => ⟨S1x128, .f32⟩
  | 11 => ⟨S80000x128, .f32⟩
  | 12 => ⟨S4x20000x128, .f32⟩
  | _ => ⟨S4x20000x128, .f32⟩

abbrev hbmTy (i : Nat) : BufTy := match i / 128 with
  | 0 => hbmTy0_0 i
  | 1 => hbmTy0_1 i
  | _ => ⟨S4x20000x128, .f32⟩

abbrev bufTy : (tb : Table) → Fin (tcTables nBuf tb) → BufTy
  | .hbm, ⟨i, _⟩ => hbmTy i
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S8000x128, .f32⟩
  | .local _ .vmem, ⟨4, _⟩ => ⟨S8000x128, .f32⟩
  | .local _ .vmem, ⟨5, _⟩ => ⟨S8000x128, .f32⟩
  | .local _ .vmem, ⟨6, _⟩ => ⟨S8000x128, .f32⟩
  | .local _ .vmem, ⟨7, _⟩ => ⟨S1x128, .f32⟩
  | .local _ .vmem, ⟨8, _⟩ => ⟨S8000x128, .f32⟩
  | .local _ .vmem, ⟨9, _⟩ => ⟨S8000x128, .f32⟩
  | .local _ .vmem, ⟨10, _⟩ => ⟨S8000x128, .f32⟩
  | .local _ .vmem, ⟨11, _⟩ => ⟨S8000x128, .f32⟩
  | .local _ .vmem, ⟨12, _⟩ => ⟨S128x128, .f32⟩
  | .local _ .vmem, ⟨13, _⟩ => ⟨S8000x128, .f32⟩
  | .local _ .vmem, ⟨14, _⟩ => ⟨S8000x128, .f32⟩
  | .local _ .vmem, ⟨15, _⟩ => ⟨S8000x128, .f32⟩
  | .local _ .vmem, ⟨16, _⟩ => ⟨S8000x128, .f32⟩
  | .local _ .vmem, ⟨17, _⟩ => ⟨S1x128, .f32⟩
  | .local _ .vmem, ⟨18, _⟩ => ⟨S8000x128, .f32⟩
  | .local _ .vmem, ⟨19, _⟩ => ⟨S8000x128, .f32⟩
  | .local _ .vmem, ⟨20, _⟩ => ⟨S8000x128, .f32⟩
  | .local _ .vmem, ⟨21, _⟩ => ⟨S8000x128, .f32⟩
  | .local _ .vmem, ⟨22, _⟩ => ⟨S128x128, .f32⟩
  | .local _ .vmem, ⟨23, _⟩ => ⟨S8000x128, .f32⟩
  | .local _ .vmem, ⟨24, _⟩ => ⟨S8000x128, .f32⟩
  | .local _ .vmem, ⟨25, _⟩ => ⟨S8000x128, .f32⟩
  | .local _ .vmem, ⟨26, _⟩ => ⟨S8000x128, .f32⟩
  | .local _ .vmem, ⟨27, _⟩ => ⟨S1x128, .f32⟩
  | .local _ .vmem, ⟨28, _⟩ => ⟨S8000x128, .f32⟩
  | .local _ .vmem, ⟨29, _⟩ => ⟨S8000x128, .f32⟩
  | _, _ => ⟨S4x20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_c_10 : Ref sig .tc := ⟨.hbm, 68, rfl⟩
abbrev main_v46 : Ref sig .tc := ⟨.hbm, 69, rfl⟩
abbrev main_v47 : Ref sig .tc := ⟨.hbm, 70, rfl⟩
abbrev main_c_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_c_15 : Ref sig .tc := ⟨.hbm, 98, rfl⟩
abbrev main_v71 : Ref sig .tc := ⟨.hbm, 99, rfl⟩
abbrev main_v72 : Ref sig .tc := ⟨.hbm, 100, rfl⟩
abbrev main_c_16 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_c_17 : Ref sig .tc := ⟨.hbm, 114, rfl⟩
abbrev main_v85 : Ref sig .tc := ⟨.hbm, 115, rfl⟩
abbrev main_v86 : Ref sig .tc := ⟨.hbm, 116, rfl⟩
abbrev main_c_18 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_19 : Ref sig .tc := ⟨.hbm, 126, rfl⟩
abbrev main_v95 : Ref sig .tc := ⟨.hbm, 127, rfl⟩
abbrev main_c_20 : Ref sig .tc := ⟨.hbm, 128, rfl⟩
abbrev main_v96 : Ref sig .tc := ⟨.hbm, 129, rfl⟩
abbrev main_v97 : Ref sig .tc := ⟨.hbm, 130, rfl⟩
abbrev main_c_21 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S8000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S8000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  shapeCasts_S4x20000x128_S80000x128 : S4x20000x128.ShapeCasts S80000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S80000x128_S4x20000x128 : S80000x128.ShapeCasts S4x20000x128
  bcast_S340000_S1x340000x1_1 : S340000.BroadcastsInDim S1x340000x1 (![1] : Fin 1 → Fin S1x340000x1.rank)
  bcast_S1x340000x1_S4x340000x128_0_1_2 : S1x340000x1.BroadcastsInDim S4x340000x128 (![0, 1, 2] : Fin 3 → Fin S4x340000x128.rank)
  bcast_S_S4x20000x128 : S_.BroadcastsInDim S4x20000x128 (![] : Fin 0 → Fin S4x20000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  dot_S8000x128_S128x128_S8000x128_1_0_0_1_n_n_wf : DotDims.WF S8000x128 S128x128 S8000x128 [1] [0] [0] [1] [] []
  gather_S4x20000x128_S340000x1_S4x340000x128_02_1_n_n_1_1_41128_wf : GatherDims.WF S4x20000x128 S340000x1 S4x340000x128 [0, 2] [1] [] [1] [] 1 ![4, 1, 128]
  scatter_S4x20000x128_S340000x1_S4x340000x128_02_1_1_1_wf : ScatterDims.WF S4x20000x128 S340000x1 S4x340000x128 [0, 2] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S80000x128.size a
  hwx0_0 : ∀ i : grid0.Coords, EltTy.bits .f32 = 32 ∨ (Rect.block (s := S80000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S80000x128.size a
  hwx0_2 : ∀ i : grid0.Coords, EltTy.bits .f32 = 32 ∨ (Rect.block (s := S80000x128) S8000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S80000x128.size a
  hwx1_0 : ∀ i : grid1.Coords, EltTy.bits .f32 = 32 ∨ (Rect.block (s := S80000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S80000x128.size a
  hwx1_2 : ∀ i : grid1.Coords, EltTy.bits .f32 = 32 ∨ (Rect.block (s := S80000x128) S8000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S80000x128.size a
  hwx2_0 : ∀ i : grid2.Coords, EltTy.bits .f32 = 32 ∨ (Rect.block (s := S80000x128) S8000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x128.size a ≤ S80000x128.size a
  hwx2_2 : ∀ i : grid2.Coords, EltTy.bits .f32 = 32 ∨ (Rect.block (s := S80000x128) S8000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S80000x128.size a
  hwx3_0 : ∀ i : grid3.Coords, EltTy.bits .f32 = 32 ∨ (Rect.block (s := S80000x128) S8000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x128.size a ≤ S80000x128.size a
  hwx3_2 : ∀ i : grid3.Coords, EltTy.bits .f32 = 32 ∨ (Rect.block (s := S80000x128) S8000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S80000x128.size a
  hwx4_0 : ∀ i : grid4.Coords, EltTy.bits .f32 = 32 ∨ (Rect.block (s := S80000x128) S8000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x128.size a ≤ S80000x128.size a
  hwx4_2 : ∀ i : grid4.Coords, EltTy.bits .f32 = 32 ∨ (Rect.block (s := S80000x128) S8000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x128.size a ≤ S80000x128.size a
  hwx5_0 : ∀ i : grid5.Coords, EltTy.bits .f32 = 32 ∨ (Rect.block (s := S80000x128) S8000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x128.size a ≤ S80000x128.size a
  hwx5_2 : ∀ i : grid5.Coords, EltTy.bits .f32 = 32 ∨ (Rect.block (s := S80000x128) S8000x128.size (cc5_transform_2 i) (hinb5_2 i)).WholeWords (EltTy.packing .f32)

variable [Facts₀]

def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S4x20000x128_S340000x1_S4x340000x128_02_1_n_n_1_1_41128 : GatherDims S4x20000x128 S340000x1 S4x340000x128 where
  offsetDims := [0, 2]
  collapsedSliceDims := [1]
  operandBatchingDims := []
  startIndicesBatchingDims := []
  startIndexMap := [1]
  indexVectorDim := 1
  sliceSizes := ![4, 1, 128]
  wf := gather_S4x20000x128_S340000x1_S4x340000x128_02_1_n_n_1_1_41128_wf
def scatter_S4x20000x128_S340000x1_S4x340000x128_02_1_1_1 : ScatterDims S4x20000x128 S340000x1 S4x340000x128 where
  updateWindowDims := [0, 2]
  insertedWindowDims := [1]
  scatterDimsToOperandDims := [1]
  indexVectorDim := 1
  wf := scatter_S4x20000x128_S340000x1_S4x340000x128_02_1_1_1_wf

abbrev win0_0 : Pipeline.Window sig grid0 :=
  Pipeline.Window.ofSpec (Memref.whole main_v32) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S8000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v57) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S8000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v78) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S8000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v82) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v83) S8000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v103) S8000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v104) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v105) S8000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S4x20000x128 : Shape := ⟨3, ![4, 20000, 128]⟩
abbrev S2x320000 : Shape := ⟨2, ![2, 320000]⟩
abbrev S128x128 : Shape := ⟨2, ![128, 128]⟩
abbrev S128 : Shape := ⟨1, ![128]⟩
abbrev S20000 : Shape := ⟨1, ![20000]⟩
abbrev S1x320000 : Shape := ⟨2, ![1, 320000]⟩
abbrev S320000 : Shape := ⟨1, ![320000]⟩
abbrev S340000 : Shape := ⟨1, ![340000]⟩
abbrev S_ : Shape := ⟨0, ![]⟩
abbrev S340000x1 : Shape := ⟨2, ![340000, 1]⟩
abbrev S4x340000x128 : Shape := ⟨3, ![4, 340000, 128]⟩
abbrev S1x340000x1 : Shape := ⟨3, ![1, 340000, 1]⟩
abbrev S1x1x128 : Shape := ⟨3, ![1, 1, 128]⟩

abbrev nBuf : Space → Nat
  | .hbm => 141
  | .vmem => 0
  | .smem => 0
  | _ => 0

abbrev hbmTy0_0 (i : Nat) : BufTy := match i % 128 with
  | 0 => ⟨S4x20000x128, .f32⟩
  | 1 => ⟨S2x320000, .i32⟩
  | 2 => ⟨S128x128, .f32⟩
  | 3 => ⟨S128x128, .f32⟩
  | 4 => ⟨S128x128, .f32⟩
  | 5 => ⟨S128, .f32⟩
  | 6 => ⟨S128, .f32⟩
  | 7 => ⟨S128, .f32⟩
  | 8 => ⟨S20000, .i32⟩
  | 9 => ⟨S1x320000, .i32⟩
  | 10 => ⟨S320000, .i32⟩
  | 11 => ⟨S340000, .i32⟩
  | 12 => ⟨S1x320000, .i32⟩
  | 13 => ⟨S320000, .i32⟩
  | 14 => ⟨S340000, .i32⟩
  | 15 => ⟨S_, .f32⟩
  | 16 => ⟨S340000, .f32⟩
  | 17 => ⟨S_, .f32⟩
  | 18 => ⟨S20000, .f32⟩
  | 19 => ⟨S340000x1, .i32⟩
  | 20 => ⟨S20000, .f32⟩
  | 21 => ⟨S_, .f32⟩
  | 22 => ⟨S20000, .f32⟩
  | 23 => ⟨S20000, .i1⟩
  | 24 => ⟨S_, .f32⟩
  | 25 => ⟨S20000, .f32⟩
  | 26 => ⟨S20000, .f32⟩
  | 27 => ⟨S20000, .f32⟩
  | 28 => ⟨S_, .f32⟩
  | 29 => ⟨S_, .f32⟩
  | 30 => ⟨S20000, .f32⟩
  | 31 => ⟨S20000, .f32⟩
  | 32 => ⟨S_, .i32⟩
  | 33 => ⟨S340000, .i32⟩
  | 34 => ⟨S340000, .i1⟩
  | 35 => ⟨S_, .i32⟩
  | 36 => ⟨S340000, .i32⟩
  | 37 => ⟨S340000, .i32⟩
  | 38 => ⟨S340000, .i32⟩
  | 39 => ⟨S340000x1, .i32⟩
  | 40 => ⟨S340000, .f32⟩
  | 41 => ⟨S_, .i32⟩
  | 42 => ⟨S340000, .i32⟩
  | 43 => ⟨S340000, .i1⟩
  | 44 => ⟨S_, .i32⟩
  | 45 => ⟨S340000, .i32⟩
  | 46 => ⟨S340000, .i32⟩
  | 47 => ⟨S340000, .i32⟩
  | 48 => ⟨S340000x1, .i32⟩
  | 49 => ⟨S340000, .f32⟩
  | 50 => ⟨S340000, .f32⟩
  | 51 => ⟨S4x20000x128, .f32⟩
  | 52 => ⟨S_, .i32⟩
  | 53 => ⟨S340000, .i32⟩
  | 54 => ⟨S340000, .i1⟩
  | 55 => ⟨S_, .i32⟩
  | 56 => ⟨S340000, .i32⟩
  | 57 => ⟨S340000, .i32⟩
  | 58 => ⟨S340000, .i32⟩
  | 59 => ⟨S340000x1, .i32⟩
  | 60 => ⟨S4x340000x128, .f32⟩
  | 61 => ⟨S1x340000x1, .f32⟩
  | 62 => ⟨S4x340000x128, .f32⟩
  | 63 => ⟨S4x340000x128, .f32⟩
  | 64 => ⟨S_, .f32⟩
  | 65 => ⟨S4x20000x128, .f32⟩
  | 66 => ⟨S_, .i32⟩
  | 67 => ⟨S340000, .i32⟩
  | 68 => ⟨S340000, .i1⟩
  | 69 => ⟨S_, .i32⟩
  | 70 => ⟨S340000, .i32⟩
  | 71 => ⟨S340000, .i32⟩
  | 72 => ⟨S340000, .i32⟩
  | 73 => ⟨S340000x1, .i32⟩
  | 74 => ⟨S4x20000x128, .f32⟩
  | 75 => ⟨S1x1x128, .f32⟩
  | 76 => ⟨S4x20000x128, .f32⟩
  | 77 => ⟨S4x20000x128, .f32⟩
  | 78 => ⟨S_, .f32⟩
  | 79 => ⟨S4x20000x128, .f32⟩
  | 80 => ⟨S4x20000x128, .f32⟩
  | 81 => ⟨S4x20000x128, .f32⟩
  | 82 => ⟨S_, .i32⟩
  | 83 => ⟨S340000, .i32⟩
  | 84 => ⟨S340000, .i1⟩
  | 85 => ⟨S_, .i32⟩
  | 86 => ⟨S340000, .i32⟩
  | 87 => ⟨S340000, .i32⟩
  | 88 => ⟨S340000, .i32⟩
  | 89 => ⟨S340000x1, .i32⟩
  | 90 => ⟨S4x340000x128, .f32⟩
  | 91 => ⟨S1x340000x1, .f32⟩
  | 92 => ⟨S4x340000x128, .f32⟩
  | 93 => ⟨S4x340000x128, .f32⟩
  | 94 => ⟨S_, .f32⟩
  | 95 => ⟨S4x20000x128, .f32⟩
  | 96 => ⟨S_, .i32⟩
  | 97 => ⟨S340000, .i32⟩
  | 98 => ⟨S340000, .i1⟩
  | 99 => ⟨S_, .i32⟩
  | 100 => ⟨S340000, .i32⟩
  | 101 => ⟨S340000, .i32⟩
  | 102 => ⟨S340000, .i32⟩
  | 103 => ⟨S340000x1, .i32⟩
  | 104 => ⟨S4x20000x128, .f32⟩
  | 105 => ⟨S1x1x128, .f32⟩
  | 106 => ⟨S4x20000x128, .f32⟩
  | 107 => ⟨S4x20000x128, .f32⟩
  | 108 => ⟨S_, .f32⟩
  | 109 => ⟨S4x20000x128, .f32⟩
  | 110 => ⟨S4x20000x128, .f32⟩
  | 111 => ⟨S4x20000x128, .f32⟩
  | 112 => ⟨S_, .i32⟩
  | 113 => ⟨S340000, .i32⟩
  | 114 => ⟨S340000, .i1⟩
  | 115 => ⟨S_, .i32⟩
  | 116 => ⟨S340000, .i32⟩
  | 117 => ⟨S340000, .i32⟩
  | 118 => ⟨S340000, .i32⟩
  | 119 => ⟨S340000x1, .i32⟩
  | 120 => ⟨S4x340000x128, .f32⟩
  | 121 => ⟨S1x340000x1, .f32⟩
  | 122 => ⟨S4x340000x128, .f32⟩
  | 123 => ⟨S4x340000x128, .f32⟩
  | 124 => ⟨S_, .f32⟩
  | 125 => ⟨S4x20000x128, .f32⟩
  | 126 => ⟨S_, .i32⟩
  | 127 => ⟨S340000, .i32⟩
  | _ => ⟨S4x20000x128, .f32⟩

abbrev hbmTy0_1 (i : Nat) : BufTy := match i % 128 with
  | 0 => ⟨S340000, .i1⟩
  | 1 => ⟨S_, .i32⟩
  | 2 => ⟨S340000, .i32⟩
  | 3 => ⟨S340000, .i32⟩
  | 4 => ⟨S340000, .i32⟩
  | 5 => ⟨S340000x1, .i32⟩
  | 6 => ⟨S4x20000x128, .f32⟩
  | 7 => ⟨S1x1x128, .f32⟩
  | 8 => ⟨S4x20000x128, .f32⟩
  | 9 => ⟨S4x20000x128, .f32⟩
  | 10 => ⟨S_, .f32⟩
  | 11 => ⟨S4x20000x128, .f32⟩
  | 12 => ⟨S4x20000x128, .f32⟩
  | _ => ⟨S4x20000x128, .f32⟩

abbrev hbmTy (i : Nat) : BufTy := match i / 128 with
  | 0 => hbmTy0_0 i
  | 1 => hbmTy0_1 i
  | _ => ⟨S4x20000x128, .f32⟩

abbrev bufTy : (tb : Table) → Fin (tcTables nBuf tb) → BufTy
  | .hbm, ⟨i, _⟩ => hbmTy i
  | _, _ => ⟨S4x20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call1_cst : Ref sig .tc := ⟨.hbm, 78, rfl⟩
abbrev main_call1_v0 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_c_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_14 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_call2_cst : Ref sig .tc := ⟨.hbm, 108, rfl⟩
abbrev main_call2_v0 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_c_20 : Ref sig .tc := ⟨.hbm, 126, rfl⟩
abbrev main_v90 : Ref sig .tc := ⟨.hbm, 127, rfl⟩
abbrev main_v91 : Ref sig .tc := ⟨.hbm, 128, rfl⟩
abbrev main_c_21 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_call3_cst : Ref sig .tc := ⟨.hbm, 138, rfl⟩
abbrev main_call3_v0 : Ref sig .tc := ⟨.hbm, 139, rfl⟩
abbrev main_v100 : Ref sig .tc := ⟨.hbm, 140, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  bcast_S340000_S1x340000x1_1 : S340000.BroadcastsInDim S1x340000x1 (![1] : Fin 1 → Fin S1x340000x1.rank)
  bcast_S1x340000x1_S4x340000x128_0_1_2 : S1x340000x1.BroadcastsInDim S4x340000x128 (![0, 1, 2] : Fin 3 → Fin S4x340000x128.rank)
  bcast_S_S4x20000x128 : S_.BroadcastsInDim S4x20000x128 (![] : Fin 0 → Fin S4x20000x128.rank)
  bcast_S128_S1x1x128_2 : S128.BroadcastsInDim S1x1x128 (![2] : Fin 1 → Fin S1x1x128.rank)
  bcast_S1x1x128_S4x20000x128_0_1_2 : S1x1x128.BroadcastsInDim S4x20000x128 (![0, 1, 2] : Fin 3 → Fin S4x20000x128.rank)
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  dot_S4x20000x128_S128x128_S4x20000x128_2_0_01_1_n_n_wf : DotDims.WF S4x20000x128 S128x128 S4x20000x128 [2] [0] [0, 1] [1] [] []
  gather_S4x20000x128_S340000x1_S4x340000x128_02_1_n_n_1_1_41128_wf : GatherDims.WF S4x20000x128 S340000x1 S4x340000x128 [0, 2] [1] [] [1] [] 1 ![4, 1, 128]
  scatter_S4x20000x128_S340000x1_S4x340000x128_02_1_1_1_wf : ScatterDims.WF S4x20000x128 S340000x1 S4x340000x128 [0, 2] [1] [1] 1

variable [Facts₀]

def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def dot_S4x20000x128_S128x128_S4x20000x128_2_0_01_1_n_n : DotDims S4x20000x128 S128x128 S4x20000x128 where
  lhsContracting := [2]
  rhsContracting := [0]
  lhsNonContracting := [0, 1]
  rhsNonContracting := [1]
  lhsBatch := []
  rhsBatch := []
  wf := dot_S4x20000x128_S128x128_S4x20000x128_2_0_01_1_n_n_wf
def gather_S4x20000x128_S340000x1_S4x340000x128_02_1_n_n_1_1_41128 : GatherDims S4x20000x128 S340000x1 S4x340000x128 where
  offsetDims := [0, 2]
  collapsedSliceDims := [1]
  operandBatchingDims := []
  startIndicesBatchingDims := []
  startIndexMap := [1]
  indexVectorDim := 1
  sliceSizes := ![4, 1, 128]
  wf := gather_S4x20000x128_S340000x1_S4x340000x128_02_1_n_n_1_1_41128_wf
def scatter_S4x20000x128_S340000x1_S4x340000x128_02_1_1_1 : ScatterDims S4x20000x128 S340000x1 S4x340000x128 where
  updateWindowDims := [0, 2]
  insertedWindowDims := [1]
  scatterDimsToOperandDims := [1]
  indexVectorDim := 1
  wf := scatter_S4x20000x128_S340000x1_S4x340000x128_02_1_1_1_wf

class Facts : Prop extends Facts₀ where

variable [Facts]
-- ==== Proof.KernelRun.lean ====
/-
  The idealized kernel's run with its result array named.

  @main is fifteen segments: stretches of host operations and six kernel regions. The generated frame certificate folds the
  device's buffer contents through the segments (a host stretch applies its operations, a region replaces its arrays by what
  its write-backs leave) and states that the arguments end unchanged. Here the same launch is stated with one more
  conjunct: the result buffer ends at that fold's last value, `W15`, read at the result.
-/
import proofs.«102907_j62388694941785_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting; the result buffer ends at the last value of the
    fold through the segments, and the arguments end as launched. -/
theorem run_fold : θ_run defs (onTc (τ := τ) (main (F := F))) ⟨m, fun _ => 0, ρ⟩ (fun r => ∀ c : Dev nD,
      r.2.mem ((c.tc : Thread nD τ).loc main_v106) = W15 m ρ c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v106 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c)⟩)

end Cert.KernelIdeal.Fold

end
-- ==== Proof.LibCat2.lean ====
/-
  Two arrays joined along an axis, as a function of the two arrays.

  The programs write the join of two arrays as an operation on a list of (shape, array) pairs, under a shape fact
  stated of that list; cat2 is the same join with the two arrays as plain arguments, so that an equation between the
  joined arrays follows from equations between the parts (a rewriting pass can then reach the two operands, which it
  cannot do through the list). Generic in the shapes, the axis and the element type.
-/
import Idealize.ShloMosaic.PureOps.Ideal.Laws

namespace Cert.LibCat2

open Idealize.ShloMosaic

/-- The join of p (shape s1) and q (shape s2) along axis a of the result shape t. -/
def cat2 {α : Type} (t : Shape) (a : Fin t.rank) (s1 s2 : Shape) (h : Shape.Concatenates [s1, s2] t a)
    (p : s1.Idx → α) (q : s2.Idx → α) : t.Idx → α :=
  concatenate t a [⟨s1, p⟩, ⟨s2, q⟩] h

/-- The join written on the list of pairs is cat2 of the two arrays. -/
theorem cat2_fun {α : Type} (t : Shape) (a : Fin t.rank) (s1 s2 : Shape) (h : Shape.Concatenates [s1, s2] t a) :
    (fun (p : s1.Idx → α) (q : s2.Idx → α) => concatenate t a [⟨s1, p⟩, ⟨s2, q⟩] h) = cat2 t a s1 s2 h := rfl

end Cert.LibCat2
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.SpecK.lean ====
/-
  The graph convolution stack, as functions of whole arrays, at the exact values.

  From the edge list `e` (two rows of node ids) come the source ids and the target ids, each followed by every node's
  own id (the self loops); the in-degree of a node is the number of entries of the target list that name it; the weight
  of edge `k` is `d(src k) · d(tgt k)` with `d = 1/sqrt(max(deg, 1))` where the degree is positive and `0` elsewhere.
  One layer sends the features `h` to `relu(P(h · W) + b)`, where `P` (propagate) gathers the rows of its argument at
  the sources, scales row `k` by the weight of edge `k` and adds it into the row of its target.

  The kernel computes `h · W` and `relu(· + b)` on the array flattened to rows (node `(p, q)` is row `p · 20000 + q`):
  `rowsTimes` and `rowsBiasRelu` are those two functions on rows, and `layerRows` is the layer written through them.
-/
import proofs.«102907_j62388694941785_1_alg».proof.Proof.Gen.KernelIdeal
import proofs.«102907_j62388694941785_1_alg».proof.Proof.LibPlainProduct
import Idealize.ShloMosaic.Lib.ValueIdx

noncomputable section

namespace Cert.KernelIdeal.Spec

open Cert.KernelIdeal Cert.KernelIdeal.Gen Idealize.ShloMosaic Idealize.ShloMosaic.ValueIdx Idealize.ShloMosaic.PlainProduct

abbrev Edges := (⟨S2x320000, .i32⟩ : BufTy).Contents (Elt Ideal)
abbrev Ids := (⟨S340000, .i32⟩ : BufTy).Contents (Elt Ideal)
abbrev IdCol := (⟨S340000x1, .i32⟩ : BufTy).Contents (Elt Ideal)
abbrev PerNode := (⟨S20000, .f32⟩ : BufTy).Contents (Elt Ideal)
abbrev PerEdge := (⟨S340000, .f32⟩ : BufTy).Contents (Elt Ideal)
abbrev Feat := (⟨S4x20000x128, .f32⟩ : BufTy).Contents (Elt Ideal)
abbrev Msgs := (⟨S4x340000x128, .f32⟩ : BufTy).Contents (Elt Ideal)
abbrev Rows := (⟨S80000x128, .f32⟩ : BufTy).Contents (Elt Ideal)
abbrev Wt := (⟨S128x128, .f32⟩ : BufTy).Contents (Elt Ideal)
abbrev Bias := (⟨S128, .f32⟩ : BufTy).Contents (Elt Ideal)
abbrev BiasRow := (⟨S1x128, .f32⟩ : BufTy).Contents (Elt Ideal)

/-- Row `r` of the edge list followed by the node ids `0 … 19999`. -/
def srcIds (e : Edges) : Ids :=
  concatenate S340000 0 [⟨S320000, shapeCast S320000 (extractStridedSlice S1x320000 ![0, 0] e slices_S2x320000_S1x320000_0_0) shapeCasts_S1x320000_S320000⟩, ⟨S20000, iotaInDim S20000 32 0⟩] concatenates_S320000_S20000_S340000_d0

def tgtIds (e : Edges) : Ids :=
  concatenate S340000 0 [⟨S320000, shapeCast S320000 (extractStridedSlice S1x320000 ![1, 0] e slices_S2x320000_S1x320000_1_0) shapeCasts_S1x320000_S320000⟩, ⟨S20000, iotaInDim S20000 32 0⟩] concatenates_S320000_S20000_S340000_d0

/-- A list of ids as a column of start positions, a negative id counted from the end (`id + 20000`). -/
def startCol (ids : Ids) : IdCol :=
  broadcastInDim S340000x1 ![0] bcast_S340000_S340000x1_0
    (select (cmpi .slt ids (broadcastInDim S340000 ![] bcast_S_S340000 (constantI S_ 32 0#32)))
      (addi ids (broadcastInDim S340000 ![] bcast_S_S340000 (constantI S_ 32 20000#32))) ids)

/-- The in-degree of every node: a one added at each target. -/
def degree (e : Edges) : PerNode :=
  Host.scatterAdd (F := Ideal) scatter_S20000_S340000x1_S340000_n_0_0_1
    (broadcastInDim S20000 ![] bcast_S_S20000 (constant (F := Ideal) S_ .f32 0x00000000#32))
    (broadcastInDim S340000x1 ![0] bcast_S340000_S340000x1_0 (tgtIds e))
    (broadcastInDim S340000 ![] bcast_S_S340000 (constant (F := Ideal) S_ .f32 0x3F800000#32))

/-- `1/sqrt(max(deg, 1))` where the degree is positive, `0` elsewhere. -/
def invSqrtDeg (e : Edges) : PerNode :=
  select (cmpf (F := Ideal) .ogt (degree e) (broadcastInDim S20000 ![] bcast_S_S20000 (constant (F := Ideal) S_ .f32 0x00000000#32)))
    (Host.rsqrt (F := Ideal) (maximumf (F := Ideal) (φ := .f32) (degree e) (broadcastInDim S20000 ![] bcast_S_S20000 (constant (F := Ideal) S_ .f32 0x3F800000#32))))
    (broadcastInDim S20000 ![] bcast_S_S20000 (id (constant (F := Ideal) S_ .f32 0x00000000#32)))

/-- The weight of every edge: the product of the two end nodes' factors. -/
def edgeNorm (e : Edges) : PerEdge :=
  mulf (F := Ideal) (φ := .f32)
    (Host.gather gather_S20000_S340000x1_S340000_n_0_n_n_0_1_1 (invSqrtDeg e) (startCol (srcIds e)) : PerEdge)
    (Host.gather gather_S20000_S340000x1_S340000_n_0_n_n_0_1_1 (invSqrtDeg e) (startCol (tgtIds e)) : PerEdge)

/-- Gather the rows at the sources, scale row `k` by the weight of edge `k`, add it into the row of its target. -/
def propagate (e : Edges) (H : Feat) : Feat :=
  Host.scatterAdd (F := Ideal) scatter_S4x20000x128_S340000x1_S4x340000x128_02_1_1_1
    (broadcastInDim S4x20000x128 ![] bcast_S_S4x20000x128 (constant (F := Ideal) S_ .f32 0x00000000#32))
    (startCol (tgtIds e))
    (mulf (F := Ideal) (φ := .f32)
      (Host.gather gather_S4x20000x128_S340000x1_S4x340000x128_02_1_n_n_1_1_41128 H (startCol (srcIds e)) : Msgs)
      (broadcastInDim S4x340000x128 ![0, 1, 2] bcast_S1x340000x1_S4x340000x128_0_1_2
        (broadcastInDim S1x340000x1 ![1] bcast_S340000_S1x340000x1_1 (edgeNorm e)) : Msgs))

/-- Rows times weights: entry `(r, c)` is the sum over `k` of `x (r, k) · w (k, c)`. -/
def rowsTimes (x : Rows) (w : Wt) : Rows := rowsByCols (φ₁ := .f32) (φ₂ := .f32) (M := 80000) (K := 128) (N := 128) x w

/-- Add the bias to every row and clip at zero from below. -/
def rowsBiasRelu (y : Rows) (b : BiasRow) : Rows :=
  fun i => max (y i + b (ix2 (n0 := 1) (n1 := 128) 0 (i 1))) (Ideal.ofBits .f32 0x00000000#32)

/-- One layer through the flattened arrays, for any function `P` between the product and the bias. -/
def layerRows (P : Feat → Feat) (h : Feat) (w : Wt) (b : Bias) : Feat :=
  shapeCast S4x20000x128
    (rowsBiasRelu
      (shapeCast S80000x128
        (P (shapeCast S4x20000x128 (rowsTimes (shapeCast S80000x128 h shapeCasts_S4x20000x128_S80000x128) w) shapeCasts_S80000x128_S4x20000x128))
        shapeCasts_S4x20000x128_S80000x128)
      (shapeCast S1x128 b shapeCasts_S128_S1x128))
    shapeCasts_S80000x128_S4x20000x128

end Cert.KernelIdeal.Spec

end
-- ==== Proof.Payloads.lean ====
/-
  What each kernel body stores, as a function of the blocks it loads, at the exact values.

  A projection body rounds its two loaded blocks to half precision (the identity on exact values), multiplies them on the
  matrix unit into a zero accumulator and stores the product: the block of rows times the weights. An epilogue body adds the
  one-row bias block to every row of its block and clips at zero from below.
-/
import proofs.«102907_j62388694941785_1_alg».proof.Proof.Gen.KernelIdeal.Skeleton
import proofs.«102907_j62388694941785_1_alg».proof.Proof.SpecK
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx Idealize.ShloMosaic.PlainProduct

/-- The matrix unit's dimension numbers are the plain ones: contract the block's columns with the weights' rows. -/
theorem dims_plain : dot_S8000x128_S128x128_S8000x128_1_0_0_1_n_n = DotDims.plain 8000 128 128 := rfl

/-- A block of rows times the weights, on the matrix unit into the zero accumulator. -/
theorem product_block (x : FVec Ideal S8000x128 .f32) (w : FVec Ideal S128x128 .f32) (h : S8000x128.ShapeCasts S8000x128)
    (hb : FTy.bits .bf16 < FTy.bits .f32) :
    matmul dot_S8000x128_S128x128_S8000x128_1_0_0_1_n_n none (truncf .bf16 (shapeCast S8000x128 x h) hb) (truncf .bf16 w hb)
        (constant (F := Ideal) S8000x128 .f32 0x00000000#32)
      = rowsByCols (φ₁ := .f32) (φ₂ := .f32) (M := 8000) (K := 128) (N := 128) x w := by
  rw [shapeCast_self, dims_plain]
  exact matmul_zero_plain (φ₁ := .bf16) (φ₂ := .bf16) none _ _

/-- A block plus the bias row, clipped at zero from below, entry by entry. -/
theorem bias_relu_block (x : FVec Ideal S8000x128 .f32) (b : FVec Ideal S1x128 .f32) (h : S8000x128.ShapeCasts S8000x128)
    (h1 : S1x128.ShapeCasts S1x128) (hbr : S1x128.Broadcasts S8000x128) (r : Fin 8000) (z : Fin 128) :
    maximumf (addf (shapeCast S8000x128 x h) (broadcastTo S8000x128 (shapeCast S1x128 b h1) hbr))
        (broadcast S8000x128 (Scalar.ofBits (F := Ideal) .f32 0x00000000#32)) (ix2 r z)
      = max (x (ix2 r z) + b (ix2 (0 : Fin 1) z)) (Ideal.ofBits .f32 0x00000000#32) := by
  rw [shapeCast_self, shapeCast_self, maximumf_apply, addf_apply, broadcastTo_1b_ab_apply]
  rfl

/-- Projection body 1: the stored block is the loaded block of rows times the loaded weights. -/
theorem k0_product (x : Vec Ideal S8000x128 .f32) (w : Vec Ideal S128x128 .f32) :
    k0_pay1 (F := Ideal) x w = rowsByCols (φ₁ := .f32) (φ₂ := .f32) (M := 8000) (K := 128) (N := 128) x w := by
  unfold k0_pay1
  exact product_block x w _ _

/-- Projection body 2: the stored block is the loaded block of rows times the loaded weights. -/
theorem k2_product (x : Vec Ideal S8000x128 .f32) (w : Vec Ideal S128x128 .f32) :
    k2_pay1 (F := Ideal) x w = rowsByCols (φ₁ := .f32) (φ₂ := .f32) (M := 8000) (K := 128) (N := 128) x w := by
  unfold k2_pay1
  exact product_block x w _ _

/-- Projection body 3: the stored block is the loaded block of rows times the loaded weights. -/
theorem k4_product (x : Vec Ideal S8000x128 .f32) (w : Vec Ideal S128x128 .f32) :
    k4_pay1 (F := Ideal) x w = rowsByCols (φ₁ := .f32) (φ₂ := .f32) (M := 8000) (K := 128) (N := 128) x w := by
  unfold k4_pay1
  exact product_block x w _ _

/-- Epilogue body 1: the stored block at `(r, z)` is the loaded block's entry plus the bias at `z`, clipped at zero. -/
theorem k1_bias_relu (x : Vec Ideal S8000x128 .f32) (b : Vec Ideal S1x128 .f32) (r : Fin 8000) (z : Fin 128) :
    k1_pay1 (F := Ideal) x b (ix2 r z) = max (x (ix2 r z) + b (ix2 (0 : Fin 1) z)) (Ideal.ofBits .f32 0x00000000#32) := by
  unfold k1_pay1
  exact bias_relu_block x b _ _ _ r z

/-- Epilogue body 2: the stored block at `(r, z)` is the loaded block's entry plus the bias at `z`, clipped at zero. -/
theorem k3_bias_relu (x : Vec Ideal S8000x128 .f32) (b : Vec Ideal S1x128 .f32) (r : Fin 8000) (z : Fin 128) :
    k3_pay1 (F := Ideal) x b (ix2 r z) = max (x (ix2 r z) + b (ix2 (0 : Fin 1) z)) (Ideal.ofBits .f32 0x00000000#32) := by
  unfold k3_pay1
  exact bias_relu_block x b _ _ _ r z

/-- Epilogue body 3: the stored block at `(r, z)` is the loaded block's entry plus the bias at `z`, clipped at zero. -/
theorem k5_bias_relu (x : Vec Ideal S8000x128 .f32) (b : Vec Ideal S1x128 .f32) (r : Fin 8000) (z : Fin 128) :
    k5_pay1 (F := Ideal) x b (ix2 r z) = max (x (ix2 r z) + b (ix2 (0 : Fin 1) z)) (Ideal.ofBits .f32 0x00000000#32) := by
  unfold k5_pay1
  exact bias_relu_block x b _ _ _ r z

end Cert.KernelIdeal.Pay

end
-- ==== Proof.Region0.lean ====
/-
  Kernel region 0 as one function of whole arrays.

  The region's grid has ten points; point `t` loads rows `8000·t … 8000·t + 7999` of its first operand and the whole of its
  second, and writes its body's result back as the same rows of the output. The body multiplies its block of rows by the
  weights, and rows of a product depend on the same rows of the left factor only, so each written block is that block of
  `Spec.rowsTimes` of the whole operands; the ten blocks cover every row, so the output array ends as that function.
  Seen from outside, the region is then a single pure operation writing its output buffer, and the device's buffers after
  it are those before it with that one operation applied.
-/
import proofs.«102907_j62388694941785_1_alg».proof.Proof.Gen.KernelIdeal.Frame
import proofs.«102907_j62388694941785_1_alg».proof.Proof.Payloads

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.ShloMosaic.PlainProduct
open Idealize.SL Idealize.SL.Sem
open Idealize.ShloMosaic.Pipeline (Dat Cfg Window)

section
variable (V : (c : Dev nD) → (b : Ref sig .tc) → Buf (Elt Ideal) ((c : Thread nD τ).loc b))

/-- An array of exact values, read as a function of its index. -/
abbrev rd {s : Shape} (f : s.Idx → EReal) : s.Idx → EReal := f

theorem zero_offsets : (![0, 0] : Fin 2 → Nat) = fun _ => 0 := funext fun a => by fin_cases a <;> rfl

/-- The printed index maps over the grid: the row operand and the output take block `t` of the rows, the other operand
    its one block. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the rows of the product of the whole operands. -/
theorem flushed_eq (c : Dev nD) (t : Fin cfg0.N) :
    (dat0 V c).flushed 2 t = ((cfg0.win 2).blk t).view.read (Elt Ideal) (Spec.rowsTimes (V c main_v32) (V c main_arg2)) := by
  show (cfg0.win 2).cut (grid0.coords t) ((dat0 V c).after 2 t) = _
  rw [after0_2]
  unfold out0_2
  rw [View.canon_unit_zero zero_offsets]
  simp only [View.ld_unit_zero (S := S8000x128) zero_offsets, View.ld_unit_zero (S := S128x128) zero_offsets]
  rw [Pay.k0_product]
  obtain ⟨e0, e1, e2, e3, e4, e5⟩ := index_maps t
  funext j
  show (∑ q : Fin 128, rd (s := S80000x128) (V c main_v32) (((cfg0.win 0).blk t).view.emb (ix2 (n0 := 8000) (n1 := 128) (j 0) q))
        * rd (s := S128x128) (V c main_arg2) (((cfg0.win 1).blk t).view.emb (ix2 (n0 := 128) (n1 := 128) q (j 1))))
      = ∑ q : Fin 128, rd (s := S80000x128) (V c main_v32) (ix2 (n0 := 80000) (n1 := 128) ((((cfg0.win 2).blk t).view.emb j) 0) q)
        * rd (s := S128x128) (V c main_arg2) (ix2 (n0 := 128) (n1 := 128) q ((((cfg0.win 2).blk t).view.emb j) 1))
  refine Finset.sum_congr rfl fun q _ => ?_
  have hx : ((cfg0.win 0).blk t).view.emb (ix2 (n0 := 8000) (n1 := 128) (j 0) q)
      = ix2 (n0 := 80000) (n1 := 128) ((((cfg0.win 2).blk t).view.emb j) 0) q := by
    funext a; apply Fin.ext
    match a with
    | ⟨0, _⟩ => show win0_0.index t (0 : Fin 2) * 8000 + 1 * (j 0).val = win0_2.index t (0 : Fin 2) * 8000 + 1 * (j 0).val; omega
    | ⟨1, _⟩ => show win0_0.index t (1 : Fin 2) * 128 + 1 * q.val = q.val; omega
  have hw : ((cfg0.win 1).blk t).view.emb (ix2 (n0 := 128) (n1 := 128) q (j 1))
      = ix2 (n0 := 128) (n1 := 128) q ((((cfg0.win 2).blk t).view.emb j) 1) := by
    funext a; apply Fin.ext
    match a with
    | ⟨0, _⟩ => show win0_1.index t (0 : Fin 2) * 128 + 1 * q.val = q.val; omega
    | ⟨1, _⟩ => show win0_1.index t (1 : Fin 2) * 128 + 1 * (j 1).val = win0_2.index t (1 : Fin 2) * 128 + 1 * (j 1).val; omega
  rw [hx, hw]

/-- An index of the output array is in point `t`'s block iff each coordinate is in the block's range on its axis. -/
theorem mem_block (t : Fin cfg0.N) (i : S80000x128.Idx) :
    i ∈ ((cfg0.win 2).blk t).view.set ↔ ∀ a : Fin 2, win0_2.index t a * S8000x128.size a ≤ (i a).val ∧ (i a).val < win0_2.index t a * S8000x128.size a + S8000x128.size a := by
  show i ∈ ((View.whole main_v33).slice (win0_2.rect t)).set ↔ _
  rw [View.set_slice_whole, Rect.mem_set_unit]
  exact Iff.rfl

/-- Row `r` is in the block of point `r / 8000`: the ten blocks cover the output array. -/
theorem covered (i : S80000x128.Idx) :
    ∃ t : Fin cfg0.N, (cfg0.win 2).flush t = true ∧ i ∈ ((cfg0.win 2).blk t).view.set := by
  have hi0 : (i 0).val < 80000 := (i 0).isLt
  have hi1 : (i 1).val < 128 := (i 1).isLt
  have hN : grid0.N = 10 := N_0
  have ht : (i 0).val / 8000 < cfg0.N := by show (i 0).val / 8000 < grid0.N; omega
  obtain ⟨e0, e1, e2, e3, e4, e5⟩ := index_maps ⟨(i 0).val / 8000, ht⟩
  refine ⟨⟨(i 0).val / 8000, ht⟩, flush0_2 _, ?_⟩
  rw [mem_block]
  intro a
  match a with
  | ⟨0, _⟩ =>
    show win0_2.index ⟨(i 0).val / 8000, _⟩ (0 : Fin 2) * 8000 ≤ (i 0).val ∧ (i 0).val < win0_2.index ⟨(i 0).val / 8000, _⟩ (0 : Fin 2) * 8000 + 8000
    have e4' : win0_2.index ⟨(i 0).val / 8000, ht⟩ (0 : Fin 2) = (i 0).val / 8000 := e4
    omega
  | ⟨1, _⟩ =>
    show win0_2.index ⟨(i 0).val / 8000, _⟩ (1 : Fin 2) * 128 ≤ (i 1).val ∧ (i 1).val < win0_2.index ⟨(i 0).val / 8000, _⟩ (1 : Fin 2) * 128 + 128
    omega

/-- The output array after the region. -/
theorem output_eq (c : Dev nD) : (dat0 V c).arrAt 2 cfg0.N = Spec.rowsTimes (V c main_v32) (V c main_arg2) :=
  (dat0 V c).arrAt_eq_of_cover 2 _ (fun t _ => flushed_eq V c t) covered

end

/-- The region as one pure operation on the device's buffers. -/
def op : HloOp τ sig (Elt Ideal) :=
  StableHlo.binary main_v32 main_arg2 main_v33
    (Spec.rowsTimes : (⟨S80000x128, .f32⟩ : BufTy).Contents (Elt Ideal) → (⟨S128x128, .f32⟩ : BufTy).Contents (Elt Ideal) → (⟨S80000x128, .f32⟩ : BufTy).Contents (Elt Ideal))

variable (m : (ℓ : Loc nD τ sig) → Buf (Elt Ideal) ℓ) (ρ : Dev nD → PrngReg)

/-- The buffers at the region's exit are those at its entry with the one operation applied: the two operand arrays are
    left as they were, the output array holds the function of them, and no other buffer is touched. -/
theorem exit_eq (c : Dev nD) : W4 m ρ c = op.result (W3 m ρ c) := by
  unfold op
  funext b
  by_cases h : ∃ w, Proc.devRef .tc (Pipeline.arrRef spec0 w) = b
  · obtain ⟨w, rfl⟩ := h
    rw [W4_arr]
    match w with
    | ⟨0, _⟩ =>
      refine ((dat0 (V3 m ρ) c).arrAt_in 0 rfl cfg0.N).trans ?_
      exact (StableHlo.binary_result_ne main_v32 main_arg2 main_v33 _ _ _ _ (W3 m ρ c) (show main_v32 ≠ main_v33 by decide)).symm
    | ⟨1, _⟩ =>
      refine ((dat0 (V3 m ρ) c).arrAt_in 1 rfl cfg0.N).trans ?_
      exact (StableHlo.binary_result_ne main_v32 main_arg2 main_v33 _ _ _ _ (W3 m ρ c) (show main_arg2 ≠ main_v33 by decide)).symm
    | ⟨2, _⟩ =>
      refine (output_eq (V3 m ρ) c).trans ?_
      exact (StableHlo.binary_result main_v32 main_arg2 main_v33 _ _ _ _ (W3 m ρ c)).symm
  · have hW : W4 m ρ c b = W3 m ρ c b := by
      unfold W4 Pipeline.withArrays
      rw [dif_neg h]
    rw [hW]
    exact (HloOp.result_of_not_mem _ _ fun hb => h ⟨2, (Finset.mem_singleton.mp hb).symm⟩).symm

end Cert.KernelIdeal.Reg0

end
-- ==== Proof.Region1.lean ====
/-
  Kernel region 1 as one function of whole arrays.

  The region's grid has ten points; point `t` loads rows `8000·t … 8000·t + 7999` of its first operand and the whole of its
  second, and writes its body's result back as the same rows of the output. The body adds the bias row to every row of its
  block and clips at zero, entry by entry, so each written block is that block of
  `Spec.rowsBiasRelu` of the whole operands; the ten blocks cover every row, so the output array ends as that function.
  Seen from outside, the region is then a single pure operation writing its output buffer, and the device's buffers after
  it are those before it with that one operation applied.
-/
import proofs.«102907_j62388694941785_1_alg».proof.Proof.Gen.KernelIdeal.Frame
import proofs.«102907_j62388694941785_1_alg».proof.Proof.Payloads

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.ShloMosaic.PlainProduct
open Idealize.SL Idealize.SL.Sem
open Idealize.ShloMosaic.Pipeline (Dat Cfg Window)

section
variable (V : (c : Dev nD) → (b : Ref sig .tc) → Buf (Elt Ideal) ((c : Thread nD τ).loc b))

/-- An array of exact values, read as a function of its index. -/
abbrev rd {s : Shape} (f : s.Idx → EReal) : s.Idx → EReal := f

theorem zero_offsets : (![0, 0] : Fin 2 → Nat) = fun _ => 0 := funext fun a => by fin_cases a <;> rfl

/-- The printed index maps over the grid: the row operand and the output take block `t` of the rows, the other operand
    its one block. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the rows of the whole first operand plus the bias, clipped at zero. -/
theorem flushed_eq (c : Dev nD) (t : Fin cfg1.N) :
    (dat1 V c).flushed 2 t = ((cfg1.win 2).blk t).view.read (Elt Ideal) (Spec.rowsBiasRelu (V c main_v53) (V c main_v54)) := by
  show (cfg1.win 2).cut (grid1.coords t) ((dat1 V c).after 2 t) = _
  rw [after1_2]
  unfold out1_2
  rw [View.canon_unit_zero zero_offsets]
  simp only [View.ld_unit_zero (S := S8000x128) zero_offsets, View.ld_unit_zero (S := S1x128) zero_offsets]
  obtain ⟨e0, e1, e2, e3, e4, e5⟩ := index_maps t
  funext j
  obtain ⟨r, z, rfl⟩ : ∃ (r : Fin 8000) (z : Fin 128), j = ix2 r z := ⟨j 0, j 1, eq_ix2 j⟩
  refine (Pay.k1_bias_relu (iblk1 V c 0 t) (iblk1 V c 1 t) r z).trans ?_
  show max (rd (s := S80000x128) (V c main_v53) (((cfg1.win 0).blk t).view.emb (ix2 r z))
          + rd (s := S1x128) (V c main_v54) (((cfg1.win 1).blk t).view.emb (ix2 (0 : Fin 1) z))) (Ideal.ofBits .f32 0x00000000#32)
      = max (rd (s := S80000x128) (V c main_v53) (((cfg1.win 2).blk t).view.emb (ix2 r z))
          + rd (s := S1x128) (V c main_v54) (ix2 (n0 := 1) (n1 := 128) 0 ((((cfg1.win 2).blk t).view.emb (ix2 r z)) 1))) (Ideal.ofBits .f32 0x00000000#32)
  have hx : ((cfg1.win 0).blk t).view.emb (ix2 r z) = ((cfg1.win 2).blk t).view.emb (ix2 r z) := by
    funext a; apply Fin.ext
    match a with
    | ⟨0, _⟩ => show win1_0.index t (0 : Fin 2) * 8000 + 1 * r.val = win1_2.index t (0 : Fin 2) * 8000 + 1 * r.val; omega
    | ⟨1, _⟩ => show win1_0.index t (1 : Fin 2) * 128 + 1 * z.val = win1_2.index t (1 : Fin 2) * 128 + 1 * z.val; omega
  have hb : ((cfg1.win 1).blk t).view.emb (ix2 (0 : Fin 1) z)
      = ix2 (n0 := 1) (n1 := 128) 0 ((((cfg1.win 2).blk t).view.emb (ix2 r z)) 1) := by
    funext a; apply Fin.ext
    match a with
    | ⟨0, _⟩ => show win1_1.index t (0 : Fin 2) * 1 + 1 * 0 = 0; omega
    | ⟨1, _⟩ => show win1_1.index t (1 : Fin 2) * 128 + 1 * z.val = win1_2.index t (1 : Fin 2) * 128 + 1 * z.val; omega
  rw [hx, hb]

/-- An index of the output array is in point `t`'s block iff each coordinate is in the block's range on its axis. -/
theorem mem_block (t : Fin cfg1.N) (i : S80000x128.Idx) :
    i ∈ ((cfg1.win 2).blk t).view.set ↔ ∀ a : Fin 2, win1_2.index t a * S8000x128.size a ≤ (i a).val ∧ (i a).val < win1_2.index t a * S8000x128.size a + S8000x128.size a := by
  show i ∈ ((View.whole main_v55).slice (win1_2.rect t)).set ↔ _
  rw [View.set_slice_whole, Rect.mem_set_unit]
  exact Iff.rfl

/-- Row `r` is in the block of point `r / 8000`: the ten blocks cover the output array. -/
theorem covered (i : S80000x128.Idx) :
    ∃ t : Fin cfg1.N, (cfg1.win 2).flush t = true ∧ i ∈ ((cfg1.win 2).blk t).view.set := by
  have hi0 : (i 0).val < 80000 := (i 0).isLt
  have hi1 : (i 1).val < 128 := (i 1).isLt
  have hN : grid1.N = 10 := N_1
  have ht : (i 0).val / 8000 < cfg1.N := by show (i 0).val / 8000 < grid1.N; omega
  obtain ⟨e0, e1, e2, e3, e4, e5⟩ := index_maps ⟨(i 0).val / 8000, ht⟩
  refine ⟨⟨(i 0).val / 8000, ht⟩, flush1_2 _, ?_⟩
  rw [mem_block]
  intro a
  match a with
  | ⟨0, _⟩ =>
    show win1_2.index ⟨(i 0).val / 8000, _⟩ (0 : Fin 2) * 8000 ≤ (i 0).val ∧ (i 0).val < win1_2.index ⟨(i 0).val / 8000, _⟩ (0 : Fin 2) * 8000 + 8000
    have e4' : win1_2.index ⟨(i 0).val / 8000, ht⟩ (0 : Fin 2) = (i 0).val / 8000 := e4
    omega
  | ⟨1, _⟩ =>
    show win1_2.index ⟨(i 0).val / 8000, _⟩ (1 : Fin 2) * 128 ≤ (i 1).val ∧ (i 1).val < win1_2.index ⟨(i 0).val / 8000, _⟩ (1 : Fin 2) * 128 + 128
    omega

/-- The output array after the region. -/
theorem output_eq (c : Dev nD) : (dat1 V c).arrAt 2 cfg1.N = Spec.rowsBiasRelu (V c main_v53) (V c main_v54) :=
  (dat1 V c).arrAt_eq_of_cover 2 _ (fun t _ => flushed_eq V c t) covered

end

/-- The region as one pure operation on the device's buffers. -/
def op : HloOp τ sig (Elt Ideal) :=
  StableHlo.binary main_v53 main_v54 main_v55
    (Spec.rowsBiasRelu : (⟨S80000x128, .f32⟩ : BufTy).Contents (Elt Ideal) → (⟨S1x128, .f32⟩ : BufTy).Contents (Elt Ideal) → (⟨S80000x128, .f32⟩ : BufTy).Contents (Elt Ideal))

variable (m : (ℓ : Loc nD τ sig) → Buf (Elt Ideal) ℓ) (ρ : Dev nD → PrngReg)

/-- The buffers at the region's exit are those at its entry with the one operation applied: the two operand arrays are
    left as they were, the output array holds the function of them, and no other buffer is touched. -/
theorem exit_eq (c : Dev nD) : W6 m ρ c = op.result (W5 m ρ c) := by
  unfold op
  funext b
  by_cases h : ∃ w, Proc.devRef .tc (Pipeline.arrRef spec1 w) = b
  · obtain ⟨w, rfl⟩ := h
    rw [W6_arr]
    match w with
    | ⟨0, _⟩ =>
      refine ((dat1 (V5 m ρ) c).arrAt_in 0 rfl cfg1.N).trans ?_
      exact (StableHlo.binary_result_ne main_v53 main_v54 main_v55 _ _ _ _ (W5 m ρ c) (show main_v53 ≠ main_v55 by decide)).symm
    | ⟨1, _⟩ =>
      refine ((dat1 (V5 m ρ) c).arrAt_in 1 rfl cfg1.N).trans ?_
      exact (StableHlo.binary_result_ne main_v53 main_v54 main_v55 _ _ _ _ (W5 m ρ c) (show main_v54 ≠ main_v55 by decide)).symm
    | ⟨2, _⟩ =>
      refine (output_eq (V5 m ρ) c).trans ?_
      exact (StableHlo.binary_result main_v53 main_v54 main_v55 _ _ _ _ (W5 m ρ c)).symm
  · have hW : W6 m ρ c b = W5 m ρ c b := by
      unfold W6 Pipeline.withArrays
      rw [dif_neg h]
    rw [hW]
    exact (HloOp.result_of_not_mem _ _ fun hb => h ⟨2, (Finset.mem_singleton.mp hb).symm⟩).symm

end Cert.KernelIdeal.Reg1

end
-- ==== Proof.Region2.lean ====
/-
  Kernel region 2 as one function of whole arrays.

  The region's grid has ten points; point `t` loads rows `8000·t … 8000·t + 7999` of its first operand and the whole of its
  second, and writes its body's result back as the same rows of the output. The body multiplies its block of rows by the
  weights, and rows of a product depend on the same rows of the left factor only, so each written block is that block of
  `Spec.rowsTimes` of the whole operands; the ten blocks cover every row, so the output array ends as that function.
  Seen from outside, the region is then a single pure operation writing its output buffer, and the device's buffers after
  it are those before it with that one operation applied.
-/
import proofs.«102907_j62388694941785_1_alg».proof.Proof.Gen.KernelIdeal.Frame
import proofs.«102907_j62388694941785_1_alg».proof.Proof.Payloads

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.ShloMosaic.PlainProduct
open Idealize.SL Idealize.SL.Sem
open Idealize.ShloMosaic.Pipeline (Dat Cfg Window)

section
variable (V : (c : Dev nD) → (b : Ref sig .tc) → Buf (Elt Ideal) ((c : Thread nD τ).loc b))

/-- An array of exact values, read as a function of its index. -/
abbrev rd {s : Shape} (f : s.Idx → EReal) : s.Idx → EReal := f

theorem zero_offsets : (![0, 0] : Fin 2 → Nat) = fun _ => 0 := funext fun a => by fin_cases a <;> rfl

/-- The printed index maps over the grid: the row operand and the output take block `t` of the rows, the other operand
    its one block. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the rows of the product of the whole operands. -/
theorem flushed_eq (c : Dev nD) (t : Fin cfg2.N) :
    (dat2 V c).flushed 2 t = ((cfg2.win 2).blk t).view.read (Elt Ideal) (Spec.rowsTimes (V c main_v57) (V c main_arg3)) := by
  show (cfg2.win 2).cut (grid2.coords t) ((dat2 V c).after 2 t) = _
  rw [after2_2]
  unfold out2_2
  rw [View.canon_unit_zero zero_offsets]
  simp only [View.ld_unit_zero (S := S8000x128) zero_offsets, View.ld_unit_zero (S := S128x128) zero_offsets]
  rw [Pay.k2_product]
  obtain ⟨e0, e1, e2, e3, e4, e5⟩ := index_maps t
  funext j
  show (∑ q : Fin 128, rd (s := S80000x128) (V c main_v57) (((cfg2.win 0).blk t).view.emb (ix2 (n0 := 8000) (n1 := 128) (j 0) q))
        * rd (s := S128x128) (V c main_arg3) (((cfg2.win 1).blk t).view.emb (ix2 (n0 := 128) (n1 := 128) q (j 1))))
      = ∑ q : Fin 128, rd (s := S80000x128) (V c main_v57) (ix2 (n0 := 80000) (n1 := 128) ((((cfg2.win 2).blk t).view.emb j) 0) q)
        * rd (s := S128x128) (V c main_arg3) (ix2 (n0 := 128) (n1 := 128) q ((((cfg2.win 2).blk t).view.emb j) 1))
  refine Finset.sum_congr rfl fun q _ => ?_
  have hx : ((cfg2.win 0).blk t).view.emb (ix2 (n0 := 8000) (n1 := 128) (j 0) q)
      = ix2 (n0 := 80000) (n1 := 128) ((((cfg2.win 2).blk t).view.emb j) 0) q := by
    funext a; apply Fin.ext
    match a with
    | ⟨0, _⟩ => show win2_0.index t (0 : Fin 2) * 8000 + 1 * (j 0).val = win2_2.index t (0 : Fin 2) * 8000 + 1 * (j 0).val; omega
    | ⟨1, _⟩ => show win2_0.index t (1 : Fin 2) * 128 + 1 * q.val = q.val; omega
  have hw : ((cfg2.win 1).blk t).view.emb (ix2 (n0 := 128) (n1 := 128) q (j 1))
      = ix2 (n0 := 128) (n1 := 128) q ((((cfg2.win 2).blk t).view.emb j) 1) := by
    funext a; apply Fin.ext
    match a with
    | ⟨0, _⟩ => show win2_1.index t (0 : Fin 2) * 128 + 1 * q.val = q.val; omega
    | ⟨1, _⟩ => show win2_1.index t (1 : Fin 2) * 128 + 1 * (j 1).val = win2_2.index t (1 : Fin 2) * 128 + 1 * (j 1).val; omega
  rw [hx, hw]

/-- An index of the output array is in point `t`'s block iff each coordinate is in the block's range on its axis. -/
theorem mem_block (t : Fin cfg2.N) (i : S80000x128.Idx) :
    i ∈ ((cfg2.win 2).blk t).view.set ↔ ∀ a : Fin 2, win2_2.index t a * S8000x128.size a ≤ (i a).val ∧ (i a).val < win2_2.index t a * S8000x128.size a + S8000x128.size a := by
  show i ∈ ((View.whole main_v58).slice (win2_2.rect t)).set ↔ _
  rw [View.set_slice_whole, Rect.mem_set_unit]
  exact Iff.rfl

/-- Row `r` is in the block of point `r / 8000`: the ten blocks cover the output array. -/
theorem covered (i : S80000x128.Idx) :
    ∃ t : Fin cfg2.N, (cfg2.win 2).flush t = true ∧ i ∈ ((cfg2.win 2).blk t).view.set := by
  have hi0 : (i 0).val < 80000 := (i 0).isLt
  have hi1 : (i 1).val < 128 := (i 1).isLt
  have hN : grid2.N = 10 := N_2
  have ht : (i 0).val / 8000 < cfg2.N := by show (i 0).val / 8000 < grid2.N; omega
  obtain ⟨e0, e1, e2, e3, e4, e5⟩ := index_maps ⟨(i 0).val / 8000, ht⟩
  refine ⟨⟨(i 0).val / 8000, ht⟩, flush2_2 _, ?_⟩
  rw [mem_block]
  intro a
  match a with
  | ⟨0, _⟩ =>
    show win2_2.index ⟨(i 0).val / 8000, _⟩ (0 : Fin 2) * 8000 ≤ (i 0).val ∧ (i 0).val < win2_2.index ⟨(i 0).val / 8000, _⟩ (0 : Fin 2) * 8000 + 8000
    have e4' : win2_2.index ⟨(i 0).val / 8000, ht⟩ (0 : Fin 2) = (i 0).val / 8000 := e4
    omega
  | ⟨1, _⟩ =>
    show win2_2.index ⟨(i 0).val / 8000, _⟩ (1 : Fin 2) * 128 ≤ (i 1).val ∧ (i 1).val < win2_2.index ⟨(i 0).val / 8000, _⟩ (1 : Fin 2) * 128 + 128
    omega

/-- The output array after the region. -/
theorem output_eq (c : Dev nD) : (dat2 V c).arrAt 2 cfg2.N = Spec.rowsTimes (V c main_v57) (V c main_arg3) :=
  (dat2 V c).arrAt_eq_of_cover 2 _ (fun t _ => flushed_eq V c t) covered

end

/-- The region as one pure operation on the device's buffers. -/
def op : HloOp τ sig (Elt Ideal) :=
  StableHlo.binary main_v57 main_arg3 main_v58
    (Spec.rowsTimes : (⟨S80000x128, .f32⟩ : BufTy).Contents (Elt Ideal) → (⟨S128x128, .f32⟩ : BufTy).Contents (Elt Ideal) → (⟨S80000x128, .f32⟩ : BufTy).Contents (Elt Ideal))

variable (m : (ℓ : Loc nD τ sig) → Buf (Elt Ideal) ℓ) (ρ : Dev nD → PrngReg)

/-- The buffers at the region's exit are those at its entry with the one operation applied: the two operand arrays are
    left as they were, the output array holds the function of them, and no other buffer is touched. -/
theorem exit_eq (c : Dev nD) : W8 m ρ c = op.result (W7 m ρ c) := by
  unfold op
  funext b
  by_cases h : ∃ w, Proc.devRef .tc (Pipeline.arrRef spec2 w) = b
  · obtain ⟨w, rfl⟩ := h
    rw [W8_arr]
    match w with
    | ⟨0, _⟩ =>
      refine ((dat2 (V7 m ρ) c).arrAt_in 0 rfl cfg2.N).trans ?_
      exact (StableHlo.binary_result_ne main_v57 main_arg3 main_v58 _ _ _ _ (W7 m ρ c) (show main_v57 ≠ main_v58 by decide)).symm
    | ⟨1, _⟩ =>
      refine ((dat2 (V7 m ρ) c).arrAt_in 1 rfl cfg2.N).trans ?_
      exact (StableHlo.binary_result_ne main_v57 main_arg3 main_v58 _ _ _ _ (W7 m ρ c) (show main_arg3 ≠ main_v58 by decide)).symm
    | ⟨2, _⟩ =>
      refine (output_eq (V7 m ρ) c).trans ?_
      exact (StableHlo.binary_result main_v57 main_arg3 main_v58 _ _ _ _ (W7 m ρ c)).symm
  · have hW : W8 m ρ c b = W7 m ρ c b := by
      unfold W8 Pipeline.withArrays
      rw [dif_neg h]
    rw [hW]
    exact (HloOp.result_of_not_mem _ _ fun hb => h ⟨2, (Finset.mem_singleton.mp hb).symm⟩).symm

end Cert.KernelIdeal.Reg2

end
-- ==== Proof.Region3.lean ====
/-
  Kernel region 3 as one function of whole arrays.

  The region's grid has ten points; point `t` loads rows `8000·t … 8000·t + 7999` of its first operand and the whole of its
  second, and writes its body's result back as the same rows of the output. The body adds the bias row to every row of its
  block and clips at zero, entry by entry, so each written block is that block of
  `Spec.rowsBiasRelu` of the whole operands; the ten blocks cover every row, so the output array ends as that function.
  Seen from outside, the region is then a single pure operation writing its output buffer, and the device's buffers after
  it are those before it with that one operation applied.
-/
import proofs.«102907_j62388694941785_1_alg».proof.Proof.Gen.KernelIdeal.Frame
import proofs.«102907_j62388694941785_1_alg».proof.Proof.Payloads

set_option maxRecDepth 16384

noncomputable section

namespace Cert.KernelIdeal.Reg3

open Cert.KernelIdeal Cert.KernelIdeal.Gen
open Idealize.ShloMosaic Idealize.ShloMosaic.TcCoe Idealize.ShloMosaic.ValueIdx Idealize.ShloMosaic.PlainProduct
open Idealize.SL Idealize.SL.Sem
open Idealize.ShloMosaic.Pipeline (Dat Cfg Window)

section
variable (V : (c : Dev nD) → (b : Ref sig .tc) → Buf (Elt Ideal) ((c : Thread nD τ).loc b))

/-- An array of exact values, read as a function of its index. -/
abbrev rd {s : Shape} (f : s.Idx → EReal) : s.Idx → EReal := f

theorem zero_offsets : (![0, 0] : Fin 2 → Nat) = fun _ => 0 := funext fun a => by fin_cases a <;> rfl

/-- The printed index maps over the grid: the row operand and the output take block `t` of the rows, the other operand
    its one block. -/
theorem index_maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the rows of the whole first operand plus the bias, clipped at zero. -/
theorem flushed_eq (c : Dev nD) (t : Fin cfg3.N) :
    (dat3 V c).flushed 2 t = ((cfg3.win 2).blk t).view.read (Elt Ideal) (Spec.rowsBiasRelu (V c main_v78) (V c main_v79)) := by
  show (cfg3.win 2).cut (grid3.coords t) ((dat3 V c).after 2 t) = _
  rw [after3_2]
  unfold out3_2
  rw [View.canon_unit_zero zero_offsets]
  simp only [View.ld_unit_zero (S := S8000x128) zero_offsets, View.ld_unit_zero (S := S1x128) zero_offsets]
  obtain ⟨e0, e1, e2, e3, e4, e5⟩ := index_maps t
  funext j
  obtain ⟨r, z, rfl⟩ : ∃ (r : Fin 8000) (z : Fin 128), j = ix2 r z := ⟨j 0, j 1, eq_ix2 j⟩
  refine (Pay.k3_bias_relu (iblk3 V c 0 t) (iblk3 V c 1 t) r z).trans ?_
  show max (rd (s := S80000x128) (V c main_v78) (((cfg3.win 0).blk t).view.emb (ix2 r z))
          + rd (s := S1x128) (V c main_v79) (((cfg3.win 1).blk t).view.emb (ix2 (0 : Fin 1) z))) (Ideal.ofBits .f32 0x00000000#32)
      = max (rd (s := S80000x128) (V c main_v78) (((cfg3.win 2).blk t).view.emb (ix2 r z))
          + rd (s := S1x128) (V c main_v79) (ix2 (n0 := 1) (n1 := 128) 0 ((((cfg3.win 2).blk t).view.emb (ix2 r z)) 1))) (Ideal.ofBits .f32 0x00000000#32)
  have hx : ((cfg3.win 0).blk t).view.emb (ix2 r z) = ((cfg3.win 2).blk t).view.emb (ix2 r z) := by
    funext a; apply Fin.ext
    match a with
    | ⟨0, _⟩ => show win3_0.index t (0 : Fin 2) * 8000 + 1 * r.val = win3_2.index t (0 : Fin 2) * 8000 + 1 * r.val; omega
    | ⟨1, _⟩ => show win3_0.index t (1 : Fin 2) * 128 + 1 * z.val = win3_2.index t (1 : Fin 2) * 128 + 1 * z.val; omega
  have hb : ((cfg3.win 1).blk t).view.emb (ix2 (0 : Fin 1) z)
      = ix2 (n0 := 1) (n1 := 128) 0 ((((cfg3.win 2).blk t).view.emb (ix2 r z)) 1) := by
    funext a; apply Fin.ext
    match a with
    | ⟨0, _⟩ => show win3_1.index t (0 : Fin 2) * 1 + 1 * 0 = 0; omega
    | ⟨1, _⟩ => show win3_1.index t (1 : Fin 2) * 128 + 1 * z.val = win3_2.index t (1 : Fin 2) * 128 + 1 * z.val; omega
  rw [hx, hb]

/-- An index of the output array is in point `t`'s block iff each coordinate is in the block's range on its axis. -/
theorem mem_block (t : Fin cfg3.N) (i : S80000x128.Idx) :
    i ∈ ((cfg3.win 2).blk t).view.set ↔ ∀ a : Fin 2, win3_2.index t a * S8000x128.size a ≤ (i a).val ∧ (i a).val < win3_2.index t a * S8000x128.size a + S8000x128.size a := by
  show i ∈ ((View.whole main_v80).slice (win3_2.rect t)).set ↔ _
  rw [View.set_slice_whole, Rect.mem_set_unit]
  exact Iff.rfl

/-- Row `r` is in the block of point `r / 8000`: the ten blocks cover the output array. -/
theorem covered (i : S80000x128.Idx) :
    ∃ t : Fin cfg3.N, (cfg3.win 2).flush t = true ∧ i ∈ ((cfg3.win 2).blk t).view.set := by
  have hi0 : (i 0).val < 80000 := (i 0).isLt
  have hi1 : (i 1).val < 128 := (i 1).isLt
  have hN : grid3.N = 10 := N_3
  have ht : (i 0).val / 8000 < cfg3.N := by show (i 0).val / 8000 < grid3.N; omega
  obtain ⟨e0, e1, e2, e3, e4, e5⟩ := index_maps ⟨(i 0).val / 8000, ht⟩
  refine ⟨⟨(i 0).val / 8000, ht⟩, flush3_2 _, ?_⟩
  rw [mem_block]
  intro a
  match a with
  | ⟨0, _⟩ =>
    show win3_2.index ⟨(i 0).val / 8000, _⟩ (0 : Fin 2) * 8000 ≤ (i 0).val ∧ (i 0).val < win3_2.index ⟨(i 0).val / 8000, _⟩ (0 : Fin 2) * 8000 + 8000
    have e4' : win3_2.index ⟨(i 0).val / 8000, ht⟩ (0 : Fin 2) = (i 0).val / 8000 := e4
    omega
  | ⟨1, _⟩ =>
    show win3_2.index ⟨(i 0).val / 8000, _⟩ (1 : Fin 2) * 128 ≤ (i 1).val ∧ (i 1).val < win3_2.index ⟨(i 0).val / 8000, _⟩ (1 : Fin 2) * 128 + 128
    omega

/-- The output array after the region. -/
theorem output_eq (c : Dev nD) : (dat3 V c).arrAt 2 cfg3.N = Spec.rowsBiasRelu (V c main_v78) (V c main_v79) :=
  (dat3 V c).arrAt_eq_of_cover 2 _ (fun t _ => flushed_eq V c t) covered

end

/-- The region as one pure operation on the device's buffers. -/
def op : HloOp τ sig (Elt Ideal) :=
  StableHlo.binary main_v78 main_v79 main_v80
    (Spec.rowsBiasRelu : (⟨S80000x128, .f32⟩ : BufTy).Contents (Elt Ideal) → (⟨S1x128, .f32⟩ : BufTy).Contents (Elt Ideal) → (⟨S80000x128, .f32⟩ : BufTy).Contents (Elt Ideal))

variable (m : (ℓ : Loc nD τ sig) → Buf (Elt Ideal) ℓ) (ρ : Dev nD → PrngReg)

/-- The buffers at the region's exit are those at its entry with the one operation applied: the two operand arrays are
    left as they were, the output array holds the function of them, and no other buffer is touched. -/
theorem exit_eq (c : Dev nD) : W10 m ρ c = op.result (W9 m ρ c) := by
  unfold op
  funext b
  by_cases h : ∃ w, Proc.devRef .tc (Pipeline.arrRef spec3 w) = b
  · obtain ⟨w, rfl⟩ := h
    rw [W10_arr]
    match w with
    | ⟨0, _⟩ =>
      refine ((dat3 (V9 m ρ) c).arrAt_in 0 rfl cfg3.N).trans ?_
      exact (StableHlo.binary_result_ne main_v78 main_v79 main_v80 _ _ _ _ (W9 m ρ c) (show main_v78 ≠ main_v80 by decide)).symm
    | ⟨1, _⟩ =>
      refine ((dat3 (V9 m ρ) c).arrAt_in 1 rfl cfg3.N).trans ?_
      exact (StableHlo.binary_result_ne main_v78 main_v79 main_v80 _ _ _ _ (W9 m ρ c) (show main_v79 ≠ main_v80 by decide)).symm
    | ⟨2, _⟩ =>
      refine (output_eq (V9 m ρ) c).trans ?_
      exact (StableHlo.binary_result main_v78 main_v79 main_v80 _ _ _ _ (W9 m ρ c)).symm
  · have hW : W10 m ρ c b = W9 m ρ c b := by
      unfold W10 Pipeline.withArrays
      rw [dif_neg h]
    rw [hW]
    exact (HloOp.result_of_not_mem _ _ fun hb => h ⟨2, (Finset.mem_singleton.mp hb).symm⟩).symm

end Cert.KernelIdeal.Reg3

end
-- ==== Proof.Region4.lean ====
/-
  Kernel region 4 as one function of whole arrays.

  The region's grid has ten points; point `t` loads rows `8000·t … 8000·t + 7999` of its first operand and the whole of its
  second, and writes its body's result back as the same rows of the output. The body multiplies its block of rows by the
  weights, and rows of a product depend on the same rows of the left factor only, so each written block is that block of
  `Spec.rowsTimes` of the whole operands; the ten blocks cover every row, so the output array ends as that function.
  Seen from outside, the region is then a single pure operation writing its output buffer, and the device's buffers after
  it are those before it with that one operation applied.
-/
import proofs.«102907_j62388694941785_1_alg».proof.Proof.Gen.KernelIdeal.Frame
import proofs.«102907_j62388694941785_1_alg».proof.Proof.Payloads

set_option maxRecDepth 16384

noncomputable section

namespace Cert.KernelIdeal.Reg4

open Cert.KernelIdeal Cert.KernelIdeal.Gen
open Idealize.ShloMosaic Idealize.ShloMosaic.TcCoe Idealize.ShloMosaic.ValueIdx Idealize.ShloMosaic.PlainProduct
open Idealize.SL Idealize.SL.Sem
open Idealize.ShloMosaic.Pipeline (Dat Cfg Window)

section
variable (V : (c : Dev nD) → (b : Ref sig .tc) → Buf (Elt Ideal) ((c : Thread nD τ).loc b))

/-- An array of exact values, read as a function of its index. -/
abbrev rd {s : Shape} (f : s.Idx → EReal) : s.Idx → EReal := f

theorem zero_offsets : (![0, 0] : Fin 2 → Nat) = fun _ => 0 := funext fun a => by fin_cases a <;> rfl

/-- The printed index maps over the grid: the row operand and the output take block `t` of the rows, the other operand
    its one block. -/
theorem index_maps : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the rows of the product of the whole operands. -/
theorem flushed_eq (c : Dev nD) (t : Fin cfg4.N) :
    (dat4 V c).flushed 2 t = ((cfg4.win 2).blk t).view.read (Elt Ideal) (Spec.rowsTimes (V c main_v82) (V c main_arg4)) := by
  show (cfg4.win 2).cut (grid4.coords t) ((dat4 V c).after 2 t) = _
  rw [after4_2]
  unfold out4_2
  rw [View.canon_unit_zero zero_offsets]
  simp only [View.ld_unit_zero (S := S8000x128) zero_offsets, View.ld_unit_zero (S := S128x128) zero_offsets]
  rw [Pay.k4_product]
  obtain ⟨e0, e1, e2, e3, e4, e5⟩ := index_maps t
  funext j
  show (∑ q : Fin 128, rd (s := S80000x128) (V c main_v82) (((cfg4.win 0).blk t).view.emb (ix2 (n0 := 8000) (n1 := 128) (j 0) q))
        * rd (s := S128x128) (V c main_arg4) (((cfg4.win 1).blk t).view.emb (ix2 (n0 := 128) (n1 := 128) q (j 1))))
      = ∑ q : Fin 128, rd (s := S80000x128) (V c main_v82) (ix2 (n0 := 80000) (n1 := 128) ((((cfg4.win 2).blk t).view.emb j) 0) q)
        * rd (s := S128x128) (V c main_arg4) (ix2 (n0 := 128) (n1 := 128) q ((((cfg4.win 2).blk t).view.emb j) 1))
  refine Finset.sum_congr rfl fun q _ => ?_
  have hx : ((cfg4.win 0).blk t).view.emb (ix2 (n0 := 8000) (n1 := 128) (j 0) q)
      = ix2 (n0 := 80000) (n1 := 128) ((((cfg4.win 2).blk t).view.emb j) 0) q := by
    funext a; apply Fin.ext
    match a with
    | ⟨0, _⟩ => show win4_0.index t (0 : Fin 2) * 8000 + 1 * (j 0).val = win4_2.index t (0 : Fin 2) * 8000 + 1 * (j 0).val; omega
    | ⟨1, _⟩ => show win4_0.index t (1 : Fin 2) * 128 + 1 * q.val = q.val; omega
  have hw : ((cfg4.win 1).blk t).view.emb (ix2 (n0 := 128) (n1 := 128) q (j 1))
      = ix2 (n0 := 128) (n1 := 128) q ((((cfg4.win 2).blk t).view.emb j) 1) := by
    funext a; apply Fin.ext
    match a with
    | ⟨0, _⟩ => show win4_1.index t (0 : Fin 2) * 128 + 1 * q.val = q.val; omega
    | ⟨1, _⟩ => show win4_1.index t (1 : Fin 2) * 128 + 1 * (j 1).val = win4_2.index t (1 : Fin 2) * 128 + 1 * (j 1).val; omega
  rw [hx, hw]

/-- An index of the output array is in point `t`'s block iff each coordinate is in the block's range on its axis. -/
theorem mem_block (t : Fin cfg4.N) (i : S80000x128.Idx) :
    i ∈ ((cfg4.win 2).blk t).view.set ↔ ∀ a : Fin 2, win4_2.index t a * S8000x128.size a ≤ (i a).val ∧ (i a).val < win4_2.index t a * S8000x128.size a + S8000x128.size a := by
  show i ∈ ((View.whole main_v83).slice (win4_2.rect t)).set ↔ _
  rw [View.set_slice_whole, Rect.mem_set_unit]
  exact Iff.rfl

/-- Row `r` is in the block of point `r / 8000`: the ten blocks cover the output array. -/
theorem covered (i : S80000x128.Idx) :
    ∃ t : Fin cfg4.N, (cfg4.win 2).flush t = true ∧ i ∈ ((cfg4.win 2).blk t).view.set := by
  have hi0 : (i 0).val < 80000 := (i 0).isLt
  have hi1 : (i 1).val < 128 := (i 1).isLt
  have hN : grid4.N = 10 := N_4
  have ht : (i 0).val / 8000 < cfg4.N := by show (i 0).val / 8000 < grid4.N; omega
  obtain ⟨e0, e1, e2, e3, e4, e5⟩ := index_maps ⟨(i 0).val / 8000, ht⟩
  refine ⟨⟨(i 0).val / 8000, ht⟩, flush4_2 _, ?_⟩
  rw [mem_block]
  intro a
  match a with
  | ⟨0, _⟩ =>
    show win4_2.index ⟨(i 0).val / 8000, _⟩ (0 : Fin 2) * 8000 ≤ (i 0).val ∧ (i 0).val < win4_2.index ⟨(i 0).val / 8000, _⟩ (0 : Fin 2) * 8000 + 8000
    have e4' : win4_2.index ⟨(i 0).val / 8000, ht⟩ (0 : Fin 2) = (i 0).val / 8000 := e4
    omega
  | ⟨1, _⟩ =>
    show win4_2.index ⟨(i 0).val / 8000, _⟩ (1 : Fin 2) * 128 ≤ (i 1).val ∧ (i 1).val < win4_2.index ⟨(i 0).val / 8000, _⟩ (1 : Fin 2) * 128 + 128
    omega

/-- The output array after the region. -/
theorem output_eq (c : Dev nD) : (dat4 V c).arrAt 2 cfg4.N = Spec.rowsTimes (V c main_v82) (V c main_arg4) :=
  (dat4 V c).arrAt_eq_of_cover 2 _ (fun t _ => flushed_eq V c t) covered

end

/-- The region as one pure operation on the device's buffers. -/
def op : HloOp τ sig (Elt Ideal) :=
  StableHlo.binary main_v82 main_arg4 main_v83
    (Spec.rowsTimes : (⟨S80000x128, .f32⟩ : BufTy).Contents (Elt Ideal) → (⟨S128x128, .f32⟩ : BufTy).Contents (Elt Ideal) → (⟨S80000x128, .f32⟩ : BufTy).Contents (Elt Ideal))

variable (m : (ℓ : Loc nD τ sig) → Buf (Elt Ideal) ℓ) (ρ : Dev nD → PrngReg)

/-- The buffers at the region's exit are those at its entry with the one operation applied: the two operand arrays are
    left as they were, the output array holds the function of them, and no other buffer is touched. -/
theorem exit_eq (c : Dev nD) : W12 m ρ c = op.result (W11 m ρ c) := by
  unfold op
  funext b
  by_cases h : ∃ w, Proc.devRef .tc (Pipeline.arrRef spec4 w) = b
  · obtain ⟨w, rfl⟩ := h
    rw [W12_arr]
    match w with
    | ⟨0, _⟩ =>
      refine ((dat4 (V11 m ρ) c).arrAt_in 0 rfl cfg4.N).trans ?_
      exact (StableHlo.binary_result_ne main_v82 main_arg4 main_v83 _ _ _ _ (W11 m ρ c) (show main_v82 ≠ main_v83 by decide)).symm
    | ⟨1, _⟩ =>
      refine ((dat4 (V11 m ρ) c).arrAt_in 1 rfl cfg4.N).trans ?_
      exact (StableHlo.binary_result_ne main_v82 main_arg4 main_v83 _ _ _ _ (W11 m ρ c) (show main_arg4 ≠ main_v83 by decide)).symm
    | ⟨2, _⟩ =>
      refine (output_eq (V11 m ρ) c).trans ?_
      exact (StableHlo.binary_result main_v82 main_arg4 main_v83 _ _ _ _ (W11 m ρ c)).symm
  · have hW : W12 m ρ c b = W11 m ρ c b := by
      unfold W12 Pipeline.withArrays
      rw [dif_neg h]
    rw [hW]
    exact (HloOp.result_of_not_mem _ _ fun hb => h ⟨2, (Finset.mem_singleton.mp hb).symm⟩).symm

end Cert.KernelIdeal.Reg4

end
-- ==== Proof.Region5.lean ====
/-
  Kernel region 5 as one function of whole arrays.

  The region's grid has ten points; point `t` loads rows `8000·t … 8000·t + 7999` of its first operand and the whole of its
  second, and writes its body's result back as the same rows of the output. The body adds the bias row to every row of its
  block and clips at zero, entry by entry, so each written block is that block of
  `Spec.rowsBiasRelu` of the whole operands; the ten blocks cover every row, so the output array ends as that function.
  Seen from outside, the region is then a single pure operation writing its output buffer, and the device's buffers after
  it are those before it with that one operation applied.
-/
import proofs.«102907_j62388694941785_1_alg».proof.Proof.Gen.KernelIdeal.Frame
import proofs.«102907_j62388694941785_1_alg».proof.Proof.Payloads

set_option maxRecDepth 16384

noncomputable section

namespace Cert.KernelIdeal.Reg5

open Cert.KernelIdeal Cert.KernelIdeal.Gen
open Idealize.ShloMosaic Idealize.ShloMosaic.TcCoe Idealize.ShloMosaic.ValueIdx Idealize.ShloMosaic.PlainProduct
open Idealize.SL Idealize.SL.Sem
open Idealize.ShloMosaic.Pipeline (Dat Cfg Window)

section
variable (V : (c : Dev nD) → (b : Ref sig .tc) → Buf (Elt Ideal) ((c : Thread nD τ).loc b))

/-- An array of exact values, read as a function of its index. -/
abbrev rd {s : Shape} (f : s.Idx → EReal) : s.Idx → EReal := f

theorem zero_offsets : (![0, 0] : Fin 2 → Nat) = fun _ => 0 := funext fun a => by fin_cases a <;> rfl

/-- The printed index maps over the grid: the row operand and the output take block `t` of the rows, the other operand
    its one block. -/
theorem index_maps : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the rows of the whole first operand plus the bias, clipped at zero. -/
theorem flushed_eq (c : Dev nD) (t : Fin cfg5.N) :
    (dat5 V c).flushed 2 t = ((cfg5.win 2).blk t).view.read (Elt Ideal) (Spec.rowsBiasRelu (V c main_v103) (V c main_v104)) := by
  show (cfg5.win 2).cut (grid5.coords t) ((dat5 V c).after 2 t) = _
  rw [after5_2]
  unfold out5_2
  rw [View.canon_unit_zero zero_offsets]
  simp only [View.ld_unit_zero (S := S8000x128) zero_offsets, View.ld_unit_zero (S := S1x128) zero_offsets]
  obtain ⟨e0, e1, e2, e3, e4, e5⟩ := index_maps t
  funext j
  obtain ⟨r, z, rfl⟩ : ∃ (r : Fin 8000) (z : Fin 128), j = ix2 r z := ⟨j 0, j 1, eq_ix2 j⟩
  refine (Pay.k5_bias_relu (iblk5 V c 0 t) (iblk5 V c 1 t) r z).trans ?_
  show max (rd (s := S80000x128) (V c main_v103) (((cfg5.win 0).blk t).view.emb (ix2 r z))
          + rd (s := S1x128) (V c main_v104) (((cfg5.win 1).blk t).view.emb (ix2 (0 : Fin 1) z))) (Ideal.ofBits .f32 0x00000000#32)
      = max (rd (s := S80000x128) (V c main_v103) (((cfg5.win 2).blk t).view.emb (ix2 r z))
          + rd (s := S1x128) (V c main_v104) (ix2 (n0 := 1) (n1 := 128) 0 ((((cfg5.win 2).blk t).view.emb (ix2 r z)) 1))) (Ideal.ofBits .f32 0x00000000#32)
  have hx : ((cfg5.win 0).blk t).view.emb (ix2 r z) = ((cfg5.win 2).blk t).view.emb (ix2 r z) := by
    funext a; apply Fin.ext
    match a with
    | ⟨0, _⟩ => show win5_0.index t (0 : Fin 2) * 8000 + 1 * r.val = win5_2.index t (0 : Fin 2) * 8000 + 1 * r.val; omega
    | ⟨1, _⟩ => show win5_0.index t (1 : Fin 2) * 128 + 1 * z.val = win5_2.index t (1 : Fin 2) * 128 + 1 * z.val; omega
  have hb : ((cfg5.win 1).blk t).view.emb (ix2 (0 : Fin 1) z)
      = ix2 (n0 := 1) (n1 := 128) 0 ((((cfg5.win 2).blk t).view.emb (ix2 r z)) 1) := by
    funext a; apply Fin.ext
    match a with
    | ⟨0, _⟩ => show win5_1.index t (0 : Fin 2) * 1 + 1 * 0 = 0; omega
    | ⟨1, _⟩ => show win5_1.index t (1 : Fin 2) * 128 + 1 * z.val = win5_2.index t (1 : Fin 2) * 128 + 1 * z.val; omega
  rw [hx, hb]

/-- An index of the output array is in point `t`'s block iff each coordinate is in the block's range on its axis. -/
theorem mem_block (t : Fin cfg5.N) (i : S80000x128.Idx) :
    i ∈ ((cfg5.win 2).blk t).view.set ↔ ∀ a : Fin 2, win5_2.index t a * S8000x128.size a ≤ (i a).val ∧ (i a).val < win5_2.index t a * S8000x128.size a + S8000x128.size a := by
  show i ∈ ((View.whole main_v105).slice (win5_2.rect t)).set ↔ _
  rw [View.set_slice_whole, Rect.mem_set_unit]
  exact Iff.rfl

/-- Row `r` is in the block of point `r / 8000`: the ten blocks cover the output array. -/
theorem covered (i : S80000x128.Idx) :
    ∃ t : Fin cfg5.N, (cfg5.win 2).flush t = true ∧ i ∈ ((cfg5.win 2).blk t).view.set := by
  have hi0 : (i 0).val < 80000 := (i 0).isLt
  have hi1 : (i 1).val < 128 := (i 1).isLt
  have hN : grid5.N = 10 := N_5
  have ht : (i 0).val / 8000 < cfg5.N := by show (i 0).val / 8000 < grid5.N; omega
  obtain ⟨e0, e1, e2, e3, e4, e5⟩ := index_maps ⟨(i 0).val / 8000, ht⟩
  refine ⟨⟨(i 0).val / 8000, ht⟩, flush5_2 _, ?_⟩
  rw [mem_block]
  intro a
  match a with
  | ⟨0, _⟩ =>
    show win5_2.index ⟨(i 0).val / 8000, _⟩ (0 : Fin 2) * 8000 ≤ (i 0).val ∧ (i 0).val < win5_2.index ⟨(i 0).val / 8000, _⟩ (0 : Fin 2) * 8000 + 8000
    have e4' : win5_2.index ⟨(i 0).val / 8000, ht⟩ (0 : Fin 2) = (i 0).val / 8000 := e4
    omega
  | ⟨1, _⟩ =>
    show win5_2.index ⟨(i 0).val / 8000, _⟩ (1 : Fin 2) * 128 ≤ (i 1).val ∧ (i 1).val < win5_2.index ⟨(i 0).val / 8000, _⟩ (1 : Fin 2) * 128 + 128
    omega

/-- The output array after the region. -/
theorem output_eq (c : Dev nD) : (dat5 V c).arrAt 2 cfg5.N = Spec.rowsBiasRelu (V c main_v103) (V c main_v104) :=
  (dat5 V c).arrAt_eq_of_cover 2 _ (fun t _ => flushed_eq V c t) covered

end

/-- The region as one pure operation on the device's buffers. -/
def op : HloOp τ sig (Elt Ideal) :=
  StableHlo.binary main_v103 main_v104 main_v105
    (Spec.rowsBiasRelu : (⟨S80000x128, .f32⟩ : BufTy).Contents (Elt Ideal) → (⟨S1x128, .f32⟩ : BufTy).Contents (Elt Ideal) → (⟨S80000x128, .f32⟩ : BufTy).Contents (Elt Ideal))

variable (m : (ℓ : Loc nD τ sig) → Buf (Elt Ideal) ℓ) (ρ : Dev nD → PrngReg)

/-- The buffers at the region's exit are those at its entry with the one operation applied: the two operand arrays are
    left as they were, the output array holds the function of them, and no other buffer is touched. -/
theorem exit_eq (c : Dev nD) : W14 m ρ c = op.result (W13 m ρ c) := by
  unfold op
  funext b
  by_cases h : ∃ w, Proc.devRef .tc (Pipeline.arrRef spec5 w) = b
  · obtain ⟨w, rfl⟩ := h
    rw [W14_arr]
    match w with
    | ⟨0, _⟩ =>
      refine ((dat5 (V13 m ρ) c).arrAt_in 0 rfl cfg5.N).trans ?_
      exact (StableHlo.binary_result_ne main_v103 main_v104 main_v105 _ _ _ _ (W13 m ρ c) (show main_v103 ≠ main_v105 by decide)).symm
    | ⟨1, _⟩ =>
      refine ((dat5 (V13 m ρ) c).arrAt_in 1 rfl cfg5.N).trans ?_
      exact (StableHlo.binary_result_ne main_v103 main_v104 main_v105 _ _ _ _ (W13 m ρ c) (show main_v104 ≠ main_v105 by decide)).symm
    | ⟨2, _⟩ =>
      refine (output_eq (V13 m ρ) c).trans ?_
      exact (StableHlo.binary_result main_v103 main_v104 main_v105 _ _ _ _ (W13 m ρ c)).symm
  · have hW : W14 m ρ c b = W13 m ρ c b := by
      unfold W14 Pipeline.withArrays
      rw [dif_neg h]
    rw [hW]
    exact (HloOp.result_of_not_mem _ _ fun hb => h ⟨2, (Finset.mem_singleton.mp hb).symm⟩).symm

end Cert.KernelIdeal.Reg5

end
-- ==== Proof.KernelEval.lean ====
/-
  The idealized kernel's result array as a function of the argument arrays.

  The fold of the device's buffers through @main applies each stretch of host operations and, at each kernel region, the
  region's one pure operation (rows times weights, or bias and clip on rows). Read at the result buffer, operation by
  operation back to the arguments, it is three layers, each written through the flattened arrays: flatten, multiply rows by
  weights, reshape back, propagate along the edges, flatten, add the bias row and clip, reshape back.
-/
import proofs.«102907_j62388694941785_1_alg».proof.Proof.KernelRun
import proofs.«102907_j62388694941785_1_alg».proof.Proof.LibCat2
import proofs.«102907_j62388694941785_1_alg».proof.Proof.Region0
import proofs.«102907_j62388694941785_1_alg».proof.Proof.Region1
import proofs.«102907_j62388694941785_1_alg».proof.Proof.Region2
import proofs.«102907_j62388694941785_1_alg».proof.Proof.Region3
import proofs.«102907_j62388694941785_1_alg».proof.Proof.Region4
import proofs.«102907_j62388694941785_1_alg».proof.Proof.Region5

set_option maxRecDepth 16384

noncomputable section

namespace Cert.KernelIdeal.Eval

open Cert.KernelIdeal Cert.KernelIdeal.Gen
open Idealize.ShloMosaic Idealize.ShloMosaic.TcCoe Idealize.ShloMosaic.StableHlo
open Idealize.SL Idealize.SL.Sem
open Cert.LibCat2

variable (m : (ℓ : Loc nD τ sig) → Buf (Elt Ideal) ℓ) (ρ : Dev nD → PrngReg)

/-- The three layers through the flattened arrays, of the launch contents of the arguments. -/
def result (c : Dev nD) : Spec.Feat :=
  Spec.layerRows (Spec.propagate (m ((c.tc : Thread nD τ).loc main_arg1)))
    (Spec.layerRows (Spec.propagate (m ((c.tc : Thread nD τ).loc main_arg1)))
      (Spec.layerRows (Spec.propagate (m ((c.tc : Thread nD τ).loc main_arg1)))
        (m ((c.tc : Thread nD τ).loc main_arg0)) (m ((c.tc : Thread nD τ).loc main_arg2)) (m ((c.tc : Thread nD τ).loc main_arg5)))
      (m ((c.tc : Thread nD τ).loc main_arg3)) (m ((c.tc : Thread nD τ).loc main_arg6)))
    (m ((c.tc : Thread nD τ).loc main_arg4)) (m ((c.tc : Thread nD τ).loc main_arg7))

set_option maxRecDepth 1000000 in
set_option maxHeartbeats 200000000 in
/-- The last value of the fold, read at the result buffer, is the three layers of the arguments. -/
theorem fold_result (c : Dev nD) : W15 m ρ c (Proc.devRef .tc main_v106) = result m c := by
  simp only [W15, W13, W11, W9, W7, W5, W3, W2, W1,
    Reg5.exit_eq, Reg4.exit_eq, Reg3.exit_eq, Reg2.exit_eq, Reg1.exit_eq, Reg0.exit_eq,
    Reg5.op, Reg4.op, Reg3.op, Reg2.op, Reg1.op, Reg0.op,
    hostOps0, hostOps0_1, hostOps0_2, hostOps1, hostOps2, hostOps3, hostOps4, hostOps5, hostOps6, cat2_fun]
  after_results_simp
  rfl

/-- The idealized kernel's run: the result array ends at the three layers of the arguments, which end as launched. -/
theorem run : θ_run defs (onTc (τ := τ) (main (F := Ideal))) ⟨m, fun _ => 0, ρ⟩ (fun r => ∀ c : Dev nD,
      r.2.mem ((c.tc : Thread nD τ).loc main_v106) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (fold_result m ρ c), (h c).2⟩) (Fold.run_fold m ρ)

end Cert.KernelIdeal.Eval

end
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.Layer.lean ====
/-
  One layer of the stack, computed two ways, is one function.

  The reference computes `relu(P(h · W) + b)` on the three-axis arrays: a general dot product contracting the feature axis,
  the propagation `P`, a bias laid out over every node, a maximum with zero. The kernel flattens the features to rows
  (node `(p, q)` is row `p · 20000 + q`), multiplies rows by weights, reshapes back for `P`, flattens again, adds the bias
  row and clips, and reshapes back. Entry `(p, q, z)` of the reshaped product of rows is the sum over `k` of
  `h (p, q, k) · W (k, z)`, which is the general dot product's entry; and entry `(p, q, z)` of the reshaped epilogue is
  `max(y (p, q, z) + b z, 0)`, which is the reference's. The propagation between them is the same function on both sides
  and is never opened. Both sides are the same finite sums and the same maxima, entry by entry: nothing needs finiteness.
-/
import proofs.«102907_j62388694941785_1_alg».proof.Proof.SpecK
import proofs.«102907_j62388694941785_1_alg».proof.Proof.LibLayout
import proofs.«102907_j62388694941785_1_alg».proof.Proof.Gen.ReferenceIdeal
import Idealize.ShloMosaic.Lib.Pipeline.Value
import Idealize.ShloMosaic.Lib.ValueLayout
import Idealize.ShloMosaic.PureOps.Ideal.Laws

noncomputable section

namespace Cert.Layer

open Idealize.ShloMosaic Idealize.ShloMosaic.ValueIdx Idealize.ShloMosaic.PlainProduct
open Cert.KernelIdeal.Spec

abbrev dotR := Cert.ReferenceIdeal.dot_S4x20000x128_S128x128_S4x20000x128_2_0_01_1_n_n

/-- The reference's layer, for any function `P` between the product and the bias. -/
def layerRef (P : Feat → Feat) (h : Feat) (w : Wt) (b : Bias) : Feat :=
  maximumf (F := Ideal) (φ := .f32)
    (addf (F := Ideal) (φ := .f32)
      (P (Host.dotGeneral (F := Ideal) (φ₁ := .f32) (φ₂ := .f32) dotR none h w))
      (broadcastInDim Cert.ReferenceIdeal.S4x20000x128 ![0, 1, 2] Cert.ReferenceIdeal.Gen.bcast_S1x1x128_S4x20000x128_0_1_2
        (broadcastInDim Cert.ReferenceIdeal.S1x1x128 ![2] Cert.ReferenceIdeal.Gen.bcast_S128_S1x1x128_2 b)))
    (broadcastInDim Cert.ReferenceIdeal.S4x20000x128 ![] Cert.ReferenceIdeal.Gen.bcast_S_S4x20000x128
      (constant (F := Ideal) Cert.ReferenceIdeal.S_ .f32 0x00000000#32))

/-! ## The general dot product read at `(p, q, z)` -/

theorem lhs_0 (i : Cert.ReferenceIdeal.S4x20000x128.Idx) (c : dotR.contr.Idx) : (dotR.lhsIdx i c 0).val = (i 0).val := by
  unfold DotDims.lhsIdx
  rw [dif_neg (show ¬(0 : Fin Cert.ReferenceIdeal.S4x20000x128.rank) ∈ dotR.lhsBatch by decide),
    dif_pos (show (0 : Fin Cert.ReferenceIdeal.S4x20000x128.rank) ∈ dotR.lhsNonContracting by decide)]
  rfl
theorem lhs_1 (i : Cert.ReferenceIdeal.S4x20000x128.Idx) (c : dotR.contr.Idx) : (dotR.lhsIdx i c 1).val = (i 1).val := by
  unfold DotDims.lhsIdx
  rw [dif_neg (show ¬(1 : Fin Cert.ReferenceIdeal.S4x20000x128.rank) ∈ dotR.lhsBatch by decide),
    dif_pos (show (1 : Fin Cert.ReferenceIdeal.S4x20000x128.rank) ∈ dotR.lhsNonContracting by decide)]
  rfl
theorem lhs_2 (i : Cert.ReferenceIdeal.S4x20000x128.Idx) (c : dotR.contr.Idx) : (dotR.lhsIdx i c 2).val = (c ⟨0, by decide⟩).val :=
  dotR.lhsIdx_val_of_single rfl i c
theorem rhs_0 (i : Cert.ReferenceIdeal.S4x20000x128.Idx) (c : dotR.contr.Idx) : (dotR.rhsIdx i c 0).val = (c ⟨0, by decide⟩).val :=
  dotR.rhsIdx_val_of_single rfl i c
theorem rhs_1 (i : Cert.ReferenceIdeal.S4x20000x128.Idx) (c : dotR.contr.Idx) : (dotR.rhsIdx i c 1).val = (i 2).val := by
  unfold DotDims.rhsIdx
  rw [dif_neg (show ¬(1 : Fin Cert.ReferenceIdeal.S128x128.rank) ∈ dotR.rhsBatch by decide),
    dif_pos (show (1 : Fin Cert.ReferenceIdeal.S128x128.rank) ∈ dotR.rhsNonContracting by decide)]
  rfl

/-- The reference's product at `(p, q, z)`: the sum over `k` of `h (p, q, k) · w (k, z)`. -/
theorem dotGeneral_at (h : Feat) (w : Wt) (p : Fin 4) (q : Fin 20000) (z : Fin 128) :
    Host.dotGeneral (F := Ideal) (φ₁ := .f32) (φ₂ := .f32) dotR none h w (ix3 p q z) = ∑ k : Fin 128, h (ix3 p q k) * w (ix2 k z) := by
  simp only [Host.dotGeneral]
  rw [Ideal.dotGeneral_apply, ← Equiv.sum_comp (contrEquiv1 dotR 128 rfl rfl).symm]
  refine Finset.sum_congr rfl fun k _ => ?_
  have hk := contrEquiv1_symm_val dotR 128 rfl rfl k
  have el : dotR.lhsIdx (ix3 p q z) ((contrEquiv1 dotR 128 rfl rfl).symm k) = ix3 p q k := funext fun a => Fin.ext (by
    match a with
    | ⟨0, _⟩ => exact lhs_0 _ _
    | ⟨1, _⟩ => exact lhs_1 _ _
    | ⟨2, _⟩ => exact (lhs_2 _ _).trans hk)
  have er : dotR.rhsIdx (ix3 p q z) ((contrEquiv1 dotR 128 rfl rfl).symm k) = ix2 k z := funext fun a => Fin.ext (by
    match a with
    | ⟨0, _⟩ => exact (rhs_0 _ _).trans hk
    | ⟨1, _⟩ => exact rhs_1 _ _)
  rw [el, er]

/-- The row of node `(p, q)`. -/
def rowOf (p : Fin 4) (q : Fin 20000) : Fin 80000 := ⟨p.val * 20000 + q.val, by have := p.isLt; have := q.isLt; omega⟩

/-- Flatten, multiply rows by weights, reshape back: the reference's product. -/
theorem product_eq (h : Feat) (w : Wt) (h34 : Cert.KernelIdeal.S4x20000x128.ShapeCasts Cert.KernelIdeal.S80000x128)
    (h43 : Cert.KernelIdeal.S80000x128.ShapeCasts Cert.KernelIdeal.S4x20000x128) :
    shapeCast Cert.KernelIdeal.S4x20000x128 (rowsTimes (shapeCast Cert.KernelIdeal.S80000x128 h h34) w) h43
      = Host.dotGeneral (F := Ideal) (φ₁ := .f32) (φ₂ := .f32) dotR none h w := by
  funext i
  obtain ⟨p, q, z, rfl⟩ : ∃ (p : Fin 4) (q : Fin 20000) (z : Fin 128), i = ix3 p q z := ⟨i 0, i 1, i 2, eq_ix3 i⟩
  rw [dotGeneral_at, Cert.LibLayout.shapeCast_nc_abc_apply _ h43 p q z (rowOf p q) rfl]
  unfold rowsTimes
  rw [rowsByCols_apply]
  refine Finset.sum_congr rfl fun k _ => ?_
  show shapeCast Cert.KernelIdeal.S80000x128 h h34 (ix2 (rowOf p q) k) * w (ix2 k z) = h (ix3 p q k) * w (ix2 k z)
  rw [Cert.LibLayout.shapeCast_abc_nc_apply h h34 p q k (rowOf p q) rfl]

/-- The bias laid out over every node reads the bias at the feature coordinate. -/
theorem bias_at (b : Bias) (p : Fin 4) (q : Fin 20000) (z : Fin 128) :
    broadcastInDim Cert.ReferenceIdeal.S4x20000x128 ![0, 1, 2] Cert.ReferenceIdeal.Gen.bcast_S1x1x128_S4x20000x128_0_1_2
        (broadcastInDim Cert.ReferenceIdeal.S1x1x128 ![2] Cert.ReferenceIdeal.Gen.bcast_S128_S1x1x128_2 b) (ix3 p q z)
      = b (ix1 z) := by
  refine (broadcastInDim_apply _ Cert.ReferenceIdeal.Gen.bcast_S1x1x128_S4x20000x128_0_1_2 _ (ix3 p q z)
    (ix3 (0 : Fin 1) (0 : Fin 1) z) (fun a => ?_)).trans ?_
  · match a with
    | ⟨0, _⟩ => show 0 = if (1 : Nat) = 1 then 0 else p.val; rw [if_pos rfl]
    | ⟨1, _⟩ => show 0 = if (1 : Nat) = 1 then 0 else q.val; rw [if_pos rfl]
    | ⟨2, _⟩ => show z.val = if (128 : Nat) = 1 then 0 else z.val; rw [if_neg (by decide)]
  · refine broadcastInDim_apply _ Cert.ReferenceIdeal.Gen.bcast_S128_S1x1x128_2 b (ix3 (0 : Fin 1) (0 : Fin 1) z) (ix1 z) (fun a => ?_)
    match a with
    | ⟨0, _⟩ => show z.val = if (128 : Nat) = 1 then 0 else z.val; rw [if_neg (by decide)]

/-- Flatten, add the bias row and clip, reshape back: the reference's bias and maximum with zero. -/
theorem epilogue_eq (y : Feat) (b : Bias) (h34 : Cert.KernelIdeal.S4x20000x128.ShapeCasts Cert.KernelIdeal.S80000x128)
    (h43 : Cert.KernelIdeal.S80000x128.ShapeCasts Cert.KernelIdeal.S4x20000x128)
    (h12 : Cert.KernelIdeal.S128.ShapeCasts Cert.KernelIdeal.S1x128) :
    shapeCast Cert.KernelIdeal.S4x20000x128
        (rowsBiasRelu (shapeCast Cert.KernelIdeal.S80000x128 y h34) (shapeCast Cert.KernelIdeal.S1x128 b h12)) h43
      = maximumf (F := Ideal) (φ := .f32)
          (addf (F := Ideal) (φ := .f32) y
            (broadcastInDim Cert.ReferenceIdeal.S4x20000x128 ![0, 1, 2] Cert.ReferenceIdeal.Gen.bcast_S1x1x128_S4x20000x128_0_1_2
              (broadcastInDim Cert.ReferenceIdeal.S1x1x128 ![2] Cert.ReferenceIdeal.Gen.bcast_S128_S1x1x128_2 b)))
          (broadcastInDim Cert.ReferenceIdeal.S4x20000x128 ![] Cert.ReferenceIdeal.Gen.bcast_S_S4x20000x128
            (constant (F := Ideal) Cert.ReferenceIdeal.S_ .f32 0x00000000#32)) := by
  funext i
  obtain ⟨p, q, z, rfl⟩ : ∃ (p : Fin 4) (q : Fin 20000) (z : Fin 128), i = ix3 p q z := ⟨i 0, i 1, i 2, eq_ix3 i⟩
  rw [Cert.LibLayout.shapeCast_nc_abc_apply _ h43 p q z (rowOf p q) rfl, maximumf_apply, addf_apply, bias_at]
  show max (shapeCast Cert.KernelIdeal.S80000x128 y h34 (ix2 (rowOf p q) z) + shapeCast Cert.KernelIdeal.S1x128 b h12 (ix2 (0 : Fin 1) z))
      (Ideal.ofBits .f32 0x00000000#32) = max (y (ix3 p q z) + b (ix1 z)) _
  rw [Cert.LibLayout.shapeCast_abc_nc_apply y h34 p q z (rowOf p q) rfl, shapeCast_a_1a_apply]
  rfl

/-- The layer through the flattened arrays is the reference's layer, whatever `P` is. -/
theorem layer_eq (P : Feat → Feat) (h : Feat) (w : Wt) (b : Bias) : layerRows P h w b = layerRef P h w b := by
  unfold layerRows layerRef
  rw [product_eq, epilogue_eq]

end Cert.Layer

end
-- ==== Proof.SpecR.lean ====
/-
  The reference's edge computations, spelt over the reference program's own shape and dimension records: the source and
  target ids with the self loops, the in-degrees, the edge weights and the propagation along the edges. They are the
  functions of SpecK.lean letter for letter; each is shown equal to its twin there, one small step at a time, so that no
  larger comparison ever has to look inside them.
-/
import proofs.«102907_j62388694941785_1_alg».proof.Proof.Gen.ReferenceIdeal
import proofs.«102907_j62388694941785_1_alg».proof.Proof.SpecK

noncomputable section

namespace Cert.ReferenceIdeal.Spec

open Cert.ReferenceIdeal Cert.ReferenceIdeal.Gen Idealize.ShloMosaic

abbrev Edges := (⟨S2x320000, .i32⟩ : BufTy).Contents (Elt Ideal)
abbrev Ids := (⟨S340000, .i32⟩ : BufTy).Contents (Elt Ideal)
abbrev IdCol := (⟨S340000x1, .i32⟩ : BufTy).Contents (Elt Ideal)
abbrev PerNode := (⟨S20000, .f32⟩ : BufTy).Contents (Elt Ideal)
abbrev PerEdge := (⟨S340000, .f32⟩ : BufTy).Contents (Elt Ideal)
abbrev Feat := (⟨S4x20000x128, .f32⟩ : BufTy).Contents (Elt Ideal)
abbrev Msgs := (⟨S4x340000x128, .f32⟩ : BufTy).Contents (Elt Ideal)

/-- Row `r` of the edge list followed by the node ids `0 … 19999`. -/
def srcIds (e : Edges) : Ids :=
  concatenate S340000 0 [⟨S320000, shapeCast S320000 (extractStridedSlice S1x320000 ![0, 0] e slices_S2x320000_S1x320000_0_0) shapeCasts_S1x320000_S320000⟩, ⟨S20000, iotaInDim S20000 32 0⟩] concatenates_S320000_S20000_S340000_d0

def tgtIds (e : Edges) : Ids :=
  concatenate S340000 0 [⟨S320000, shapeCast S320000 (extractStridedSlice S1x320000 ![1, 0] e slices_S2x320000_S1x320000_1_0) shapeCasts_S1x320000_S320000⟩, ⟨S20000, iotaInDim S20000 32 0⟩] concatenates_S320000_S20000_S340000_d0

/-- A list of ids as a column of start positions, a negative id counted from the end (`id + 20000`). -/
def startCol (ids : Ids) : IdCol :=
  broadcastInDim S340000x1 ![0] bcast_S340000_S340000x1_0
    (select (cmpi .slt ids (broadcastInDim S340000 ![] bcast_S_S340000 (constantI S_ 32 0#32)))
      (addi ids (broadcastInDim S340000 ![] bcast_S_S340000 (constantI S_ 32 20000#32))) ids)

/-- The in-degree of every node: a one added at each target. -/
def degree (e : Edges) : PerNode :=
  Host.scatterAdd (F := Ideal) scatter_S20000_S340000x1_S340000_n_0_0_1
    (broadcastInDim S20000 ![] bcast_S_S20000 (constant (F := Ideal) S_ .f32 0x00000000#32))
    (broadcastInDim S340000x1 ![0] bcast_S340000_S340000x1_0 (tgtIds e))
    (broadcastInDim S340000 ![] bcast_S_S340000 (constant (F := Ideal) S_ .f32 0x3F800000#32))

/-- `1/sqrt(max(deg, 1))` where the degree is positive, `0` elsewhere. -/
def invSqrtDeg (e : Edges) : PerNode :=
  select (cmpf (F := Ideal) .ogt (degree e) (broadcastInDim S20000 ![] bcast_S_S20000 (constant (F := Ideal) S_ .f32 0x00000000#32)))
    (Host.rsqrt (F := Ideal) (maximumf (F := Ideal) (φ := .f32) (degree e) (broadcastInDim S20000 ![] bcast_S_S20000 (constant (F := Ideal) S_ .f32 0x3F800000#32))))
    (broadcastInDim S20000 ![] bcast_S_S20000 (id (constant (F := Ideal) S_ .f32 0x00000000#32)))

/-- The weight of every edge: the product of the two end nodes' factors. -/
def edgeNorm (e : Edges) : PerEdge :=
  mulf (F := Ideal) (φ := .f32)
    (Host.gather gather_S20000_S340000x1_S340000_n_0_n_n_0_1_1 (invSqrtDeg e) (startCol (srcIds e)) : PerEdge)
    (Host.gather gather_S20000_S340000x1_S340000_n_0_n_n_0_1_1 (invSqrtDeg e) (startCol (tgtIds e)) : PerEdge)

/-- Gather the rows at the sources, scale row `k` by the weight of edge `k`, add it into the row of its target. -/
def propagate (e : Edges) (H : Feat) : Feat :=
  Host.scatterAdd (F := Ideal) scatter_S4x20000x128_S340000x1_S4x340000x128_02_1_1_1
    (broadcastInDim S4x20000x128 ![] bcast_S_S4x20000x128 (constant (F := Ideal) S_ .f32 0x00000000#32))
    (startCol (tgtIds e))
    (mulf (F := Ideal) (φ := .f32)
      (Host.gather gather_S4x20000x128_S340000x1_S4x340000x128_02_1_n_n_1_1_41128 H (startCol (srcIds e)) : Msgs)
      (broadcastInDim S4x340000x128 ![0, 1, 2] bcast_S1x340000x1_S4x340000x128_0_1_2
        (broadcastInDim S1x340000x1 ![1] bcast_S340000_S1x340000x1_1 (edgeNorm e)) : Msgs))

/-! ## Each is its twin over the kernel program's records -/

theorem srcIds_eq (e : Edges) : srcIds e = Cert.KernelIdeal.Spec.srcIds e := rfl
theorem tgtIds_eq (e : Edges) : tgtIds e = Cert.KernelIdeal.Spec.tgtIds e := rfl
theorem startCol_eq (ids : Ids) : startCol ids = Cert.KernelIdeal.Spec.startCol ids := rfl
theorem degree_eq (e : Edges) : degree e = Cert.KernelIdeal.Spec.degree e := by
  unfold degree Cert.KernelIdeal.Spec.degree; rw [tgtIds_eq]
  try rfl
theorem invSqrtDeg_eq (e : Edges) : invSqrtDeg e = Cert.KernelIdeal.Spec.invSqrtDeg e := by
  unfold invSqrtDeg Cert.KernelIdeal.Spec.invSqrtDeg; rw [degree_eq]
  try rfl
theorem edgeNorm_eq (e : Edges) : edgeNorm e = Cert.KernelIdeal.Spec.edgeNorm e := by
  unfold edgeNorm Cert.KernelIdeal.Spec.edgeNorm; rw [invSqrtDeg_eq, srcIds_eq, tgtIds_eq, startCol_eq, startCol_eq]
  try rfl
theorem propagate_eq (e : Edges) : propagate e = Cert.KernelIdeal.Spec.propagate e := by
  funext H
  unfold propagate Cert.KernelIdeal.Spec.propagate; rw [edgeNorm_eq, srcIds_eq, tgtIds_eq, startCol_eq, startCol_eq]
  try rfl

end Cert.ReferenceIdeal.Spec

end
-- ==== Proof.RefArgs.lean ====
/-
  No operation of the reference's straight line writes an argument's buffer: read at an argument, the fold of the
  operations over the launch contents is the launch contents.
-/
import proofs.«102907_j62388694941785_1_alg».proof.Proof.RefRunPatched
import Idealize.ShloMosaic.PureOps.Ideal

set_option maxRecDepth 16384

noncomputable section

namespace Cert.ReferenceIdeal.Args

open Cert.ReferenceIdeal Cert.ReferenceIdeal.Gen
open Idealize.ShloMosaic Idealize.ShloMosaic.TcCoe Idealize.ShloMosaic.StableHlo
open Idealize.SL Idealize.SL.Sem

variable (m : (ℓ : Loc nD τ sig) → Buf (Elt Ideal) ℓ)

set_option maxHeartbeats 50000000 in
theorem kept0 (c : Dev nD) :
    after (ValueP.ops (F := Ideal)) (launchContents m c) (Proc.devRef .tc main_arg0) = m ((c.tc : Thread nD τ).loc main_arg0) := by
  after_results_simp <;> rfl

set_option maxHeartbeats 50000000 in
theorem kept1 (c : Dev nD) :
    after (ValueP.ops (F := Ideal)) (launchContents m c) (Proc.devRef .tc main_arg1) = m ((c.tc : Thread nD τ).loc main_arg1) := by
  after_results_simp <;> rfl

set_option maxHeartbeats 50000000 in
theorem kept2 (c : Dev nD) :
    after (ValueP.ops (F := Ideal)) (launchContents m c) (Proc.devRef .tc main_arg2) = m ((c.tc : Thread nD τ).loc main_arg2) := by
  after_results_simp <;> rfl

set_option maxHeartbeats 50000000 in
theorem kept3 (c : Dev nD) :
    after (ValueP.ops (F := Ideal)) (launchContents m c) (Proc.devRef .tc main_arg3) = m ((c.tc : Thread nD τ).loc main_arg3) := by
  after_results_simp <;> rfl

set_option maxHeartbeats 50000000 in
theorem kept4 (c : Dev nD) :
    after (ValueP.ops (F := Ideal)) (launchContents m c) (Proc.devRef .tc main_arg4) = m ((c.tc : Thread nD τ).loc main_arg4) := by
  after_results_simp <;> rfl

set_option maxHeartbeats 50000000 in
theorem kept5 (c : Dev nD) :
    after (ValueP.ops (F := Ideal)) (launchContents m c) (Proc.devRef .tc main_arg5) = m ((c.tc : Thread nD τ).loc main_arg5) := by
  after_results_simp <;> rfl

set_option maxHeartbeats 50000000 in
theorem kept6 (c : Dev nD) :
    after (ValueP.ops (F := Ideal)) (launchContents m c) (Proc.devRef .tc main_arg6) = m ((c.tc : Thread nD τ).loc main_arg6) := by
  after_results_simp <;> rfl

set_option maxHeartbeats 50000000 in
theorem kept7 (c : Dev nD) :
    after (ValueP.ops (F := Ideal)) (launchContents m c) (Proc.devRef .tc main_arg7) = m ((c.tc : Thread nD τ).loc main_arg7) := by
  after_results_simp <;> rfl

end Cert.ReferenceIdeal.Args

end
-- ==== Proof.RefEval.lean ====
/-
  The idealized reference's result array as a function of the argument arrays.

  The reference's @main is a straight line of host operations. Read at the result buffer, operation by operation back to
  the arguments, it is three layers `relu(P(h · W) + b)` on the three-axis arrays, `P` the propagation along the edges.
-/
import proofs.«102907_j62388694941785_1_alg».proof.Proof.RefRunPatched
import proofs.«102907_j62388694941785_1_alg».proof.Proof.KernelEval
import proofs.«102907_j62388694941785_1_alg».proof.Proof.Layer
import proofs.«102907_j62388694941785_1_alg».proof.Proof.SpecR
import proofs.«102907_j62388694941785_1_alg».proof.Proof.RefArgs
import proofs.«102907_j62388694941785_1_alg».proof.Proof.LibCat2

set_option maxRecDepth 16384

noncomputable section

namespace Cert.ReferenceIdeal.Eval

open Cert.ReferenceIdeal Cert.ReferenceIdeal.Gen
open Idealize.ShloMosaic Idealize.ShloMosaic.TcCoe Idealize.ShloMosaic.StableHlo
open Idealize.SL Idealize.SL.Sem
open Cert.LibCat2 Cert.KernelIdeal

variable (m : (ℓ : Loc nD τ sig) → Buf (Elt Ideal) ℓ) (ρ : Dev nD → PrngReg)

/-- The three layers of the launch contents of the arguments. -/
def result (c : Dev nD) : Spec.Feat :=
  Cert.Layer.layerRef (Cert.ReferenceIdeal.Spec.propagate (m ((c.tc : Thread nD τ).loc main_arg1)))
    (Cert.Layer.layerRef (Cert.ReferenceIdeal.Spec.propagate (m ((c.tc : Thread nD τ).loc main_arg1)))
      (Cert.Layer.layerRef (Cert.ReferenceIdeal.Spec.propagate (m ((c.tc : Thread nD τ).loc main_arg1)))
        (m ((c.tc : Thread nD τ).loc main_arg0)) (m ((c.tc : Thread nD τ).loc main_arg2)) (m ((c.tc : Thread nD τ).loc main_arg5)))
      (m ((c.tc : Thread nD τ).loc main_arg3)) (m ((c.tc : Thread nD τ).loc main_arg6)))
    (m ((c.tc : Thread nD τ).loc main_arg4)) (m ((c.tc : Thread nD τ).loc main_arg7))

set_option maxRecDepth 1000000 in
set_option maxHeartbeats 200000000 in
/-- The fold of the operations over the launch contents, read at the result buffer, is the three layers. -/
theorem fold_result (c : Dev nD) :
    after (ValueP.ops (F := Ideal)) (launchContents m c) (Proc.devRef .tc main_v100) = result m c := by
  simp only [ValueP.ops, cat2_fun]
  after_results_simp
  rfl

/-- The idealized reference's run: the result array ends at the three layers of the arguments, which end as launched. -/
theorem run : θ_run defs (onTc (τ := τ) (main (F := Ideal))) ⟨m, fun _ => 0, ρ⟩ (fun r => ∀ c : Dev nD,
      r.2.mem ((c.tc : Thread nD τ).loc main_v100) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
      ⟨(h c main_v100).trans (fold_result m c),
       (h c main_arg0).trans (Args.kept0 m c), (h c main_arg1).trans (Args.kept1 m c), (h c main_arg2).trans (Args.kept2 m c),
       (h c main_arg3).trans (Args.kept3 m c), (h c main_arg4).trans (Args.kept4 m c), (h c main_arg5).trans (Args.kept5 m c),
       (h c main_arg6).trans (Args.kept6 m c), (h c main_arg7).trans (Args.kept7 m c)⟩)
    (ValueP.run_fold m ρ)

end Cert.ReferenceIdeal.Eval

end
-- ==== Proof.lean ====
/-
  The certificate of a three-layer graph convolution: `h ↦ relu(P(h · W) + b)` three times, where `P` gathers the rows of its
  argument at each edge's source, scales them by the edge's symmetric degree weight and adds them into the edge's target.

  The kernel's program computes the two dense steps of a layer in Pallas regions on the features flattened to rows — the
  product with the weights (half-precision inputs to the matrix unit, exact at the ideal values) and the bias with the
  clip at zero — and leaves the gather and the scatter-add between them to host operations; the reference computes the
  product as a general dot product and the bias and the clip on the three-axis arrays, with the same host operations for
  the degrees, the weights, the gather and the scatter-add. Each kernel region, whose ten grid points each handle 8000
  rows, is one pure function of whole arrays (rows times weights; rows plus bias, clipped); folding the program's buffers
  through its segments then gives the kernel's result as three layers written through the flattened arrays, and the
  reference's straight line of operations gives three layers on the three-axis arrays. A layer is the same function either
  way: the reshaped product of rows is the general dot product entry by entry (the same sum over the feature axis), the
  reshaped epilogue is the reference's bias and maximum entry by entry, and the propagation between them is the same
  function on both sides, never opened. No step moves a factor across a sum or cancels, so the inputs' finiteness is not
  used. The ideal pass rewrote nothing, so the kernel's idealization is its own text read at the exact values.
-/
import proofs.«102907_j62388694941785_1_alg».proof.Defs
import proofs.«102907_j62388694941785_1_alg».proof.Proof.Gen.Kernel
import proofs.«102907_j62388694941785_1_alg».proof.Proof.Gen.Kernel.Skeleton
import proofs.«102907_j62388694941785_1_alg».proof.Proof.Gen.Kernel.Launch
import proofs.«102907_j62388694941785_1_alg».proof.Proof.Gen.Kernel.Points
import proofs.«102907_j62388694941785_1_alg».proof.Proof.Gen.Kernel.Frame
import proofs.«102907_j62388694941785_1_alg».proof.Proof.Gen.KernelIdeal
import proofs.«102907_j62388694941785_1_alg».proof.Proof.Gen.KernelIdeal.Skeleton
import proofs.«102907_j62388694941785_1_alg».proof.Proof.Gen.KernelIdeal.Launch
import proofs.«102907_j62388694941785_1_alg».proof.Proof.Gen.KernelIdeal.Points
import proofs.«102907_j62388694941785_1_alg».proof.Proof.Gen.KernelIdeal.Frame
import proofs.«102907_j62388694941785_1_alg».proof.Proof.Gen.ReferenceIdeal
import proofs.«102907_j62388694941785_1_alg».proof.Proof.Gen.Pre_finite_inputs
import proofs.«102907_j62388694941785_1_alg».proof.Proof.KernelEval
import proofs.«102907_j62388694941785_1_alg».proof.Proof.RefEval
import proofs.«102907_j62388694941785_1_alg».proof.Proof.Layer
import proofs.«102907_j62388694941785_1_alg».proof.Proof.SpecR
import Idealize.ShloMosaic.Adequacy
import Idealize.ShloMosaic.Init

noncomputable section

namespace Cert.Proof

open Idealize.ShloMosaic Idealize.SL.Sem

/-- Three layers through the flattened arrays are three layers on the three-axis arrays. -/
theorem stack_eq (P : Cert.KernelIdeal.Spec.Feat → Cert.KernelIdeal.Spec.Feat) (x : Cert.KernelIdeal.Spec.Feat)
    (w0 w1 w2 : Cert.KernelIdeal.Spec.Wt) (b0 b1 b2 : Cert.KernelIdeal.Spec.Bias) :
    Cert.KernelIdeal.Spec.layerRows P (Cert.KernelIdeal.Spec.layerRows P (Cert.KernelIdeal.Spec.layerRows P x w0 b0) w1 b1) w2 b2
      = Cert.Layer.layerRef P (Cert.Layer.layerRef P (Cert.Layer.layerRef P x w0 b0) w1 b1) w2 b2 := by
  rw [Cert.Layer.layer_eq, Cert.Layer.layer_eq, Cert.Layer.layer_eq]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Eval.run m ρ)

/-- From memories that agree on the arguments both programs end with the same result array: the kernel's three layers
    through the flattened arrays and the reference's three layers are one function of the arguments. -/
theorem algebraic : Cert.algebraic_KernelIdeal_ReferenceIdeal := by
  intro m ρ m' ρ' _ hagree
  refine ⟨fun c => Cert.KernelIdeal.Eval.result m c, Cert.KernelIdeal.Eval.run m ρ, ?_⟩
  refine (θ_run Cert.ReferenceIdeal.defs _ _).mono (fun _ h c => ⟨(h c).1.trans ?_, (h c).2⟩)
    (Cert.ReferenceIdeal.Eval.run m' ρ')
  obtain ⟨h0, h1, h2, h3, h4, h5, h6, h7⟩ := hagree c
  unfold Cert.ReferenceIdeal.Eval.result Cert.KernelIdeal.Eval.result
  rw [h0, h1, h2, h3, h4, h5, h6, h7, Cert.ReferenceIdeal.Spec.propagate_eq]
  exact (stack_eq _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
